-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S4x50000x32 : Shape := ⟨3, ![4, 50000, 32]⟩
abbrev S32x32 : Shape := ⟨2, ![32, 32]⟩
abbrev S100000 : Shape := ⟨1, ![100000]⟩
abbrev S32x16 : Shape := ⟨2, ![32, 16]⟩
abbrev S16x1 : Shape := ⟨2, ![16, 1]⟩
abbrev S1 : Shape := ⟨1, ![1]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S4x50000x32 : S_.BroadcastsInDim S4x50000x32 (![] : Fin 0 → Fin S4x50000x32.rank)
  reducesTo_S4x50000x32_S_d0_1_2 : S4x50000x32.ReducesTo [0, 1, 2] S_
  bcast_S_S32x32 : S_.BroadcastsInDim S32x32 (![] : Fin 0 → Fin S32x32.rank)
  reducesTo_S32x32_S_d0_1 : S32x32.ReducesTo [0, 1] S_
  bcast_S_S100000 : S_.BroadcastsInDim S100000 (![] : Fin 0 → Fin S100000.rank)
  reducesTo_S100000_S_d0 : S100000.ReducesTo [0] S_
  bcast_S_S32x16 : S_.BroadcastsInDim S32x16 (![] : Fin 0 → Fin S32x16.rank)
  reducesTo_S32x16_S_d0_1 : S32x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S16x1 .f32) (main_arg10 : FVec F S1 .f32) (main_arg11 : FVec F S16x1 .f32) (main_arg12 : FVec F S1 .f32) (main_v33 : IVec S_ 1) : IVec S_ 1 :=
  let main_v34 : FVec F S16x1 .f32 := Host.absf main_arg9
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S16x1 .f32 := Host.absf main_arg11
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S100000 .f32) (main_arg7 : FVec F S32x16 .f32) (main_arg8 : FVec F S100000 .f32) (main_arg9 : FVec F S16x1 .f32) (main_arg10 : FVec F S1 .f32) (main_arg11 : FVec F S16x1 .f32) (main_arg12 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S100000 .f32 := Host.absf main_arg6
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S100000 .f32 := Host.absf main_arg8
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg9 main_arg10 main_arg11 main_arg12 main_v33

def fn {F : FTy → Type} [FloatOps F] (main_arg0 : IVec S2x1600000 32) (main_arg1 : FVec F S1600000 .f32) (main_arg2 : IVec S2x1600000 32) (main_arg3 : FVec F S1600000 .f32) (main_arg4 : FVec F S4x50000x32 .f32) (main_arg5 : FVec F S32x32 .f32) (main_arg6 : FVec F S100000 .f32) (main_arg7 : FVec F S32x16 .f32) (main_arg8 : FVec F S100000 .f32) (main_arg9 : FVec F S16x1 .f32) (main_arg10 : FVec F S1 .f32) (main_arg11 : FVec F S16x1 .f32) (main_arg12 : FVec F S1 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4x50000x32 .f32 := Host.absf main_arg4
  let main_cst_2 : FVec F S_ .f32 := constant S_ .f32 0x7F800000#32
  let main_v10 : FVec F S4x50000x32 .f32 := broadcastInDim S4x50000x32 ![] bcast_S_S4x50000x32 main_cst_2
  let main_v11 : IVec S4x50000x32 1 := cmpf .olt main_v9 main_v10
  let main_c_3 : IVec S_ 1 := constantI S_ 1 1#1
  let main_v12 : IVec S_ 1 := (fun x v => Host.reduce IntOp.andi x v reducesTo_S4x50000x32_S_d0_1_2 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_v13 main_v16
-- ==== Kernel.lean ====
abbrev S2x1600000 : Shape := ⟨2, ![2, 1600000]⟩
abbrev S1600000 : Shape := ⟨1, ![1600000]⟩
abbrev S4x50000x32 : Shape := ⟨3, ![4, 50000, 32]⟩
abbrev S32x32 : Shape := ⟨2, ![32, 32]⟩
abbrev S100000 : Shape := ⟨1, ![100000]⟩
abbrev S32x16 : Shape := ⟨2, ![32, 16]⟩
abbrev S16x1 : Shape := ⟨2, ![16, 1]⟩
abbrev S1 : Shape := ⟨1, ![1]⟩
abbrev S4x5000x32 : Shape := ⟨3, ![4, 5000, 32]⟩
abbrev S20000x32 : Shape := ⟨2, ![20000, 32]⟩
abbrev S1x1600000 : Shape := ⟨2, ![1, 1600000]⟩
abbrev S_ : Shape := ⟨0, ![]⟩
abbrev S1600000x1 : Shape := ⟨2, ![1600000, 1]⟩
abbrev S4x1600000x32 : Shape := ⟨3, ![4, 1600000, 32]⟩
abbrev S1x1600000x1 : Shape := ⟨3, ![1, 1600000, 1]⟩
abbrev S4x100000x32 : Shape := ⟨3, ![4, 100000, 32]⟩
abbrev S4x50000x16 : Shape := ⟨3, ![4, 50000, 16]⟩
abbrev S4x5000x16 : Shape := ⟨3, ![4, 5000, 16]⟩
abbrev S20000x16 : Shape := ⟨2, ![20000, 16]⟩
abbrev S4x1600000x16 : Shape := ⟨3, ![4, 1600000, 16]⟩
abbrev S4x100000x16 : Shape := ⟨3, ![4, 100000, 16]⟩
abbrev S4x1x16 : Shape := ⟨3, ![4, 1, 16]⟩
abbrev S4x16 : Shape := ⟨2, ![4, 16]⟩
abbrev S4x1 : Shape := ⟨2, ![4, 1]⟩
abbrev S1x1 : Shape := ⟨2, ![1, 1]⟩
abbrev S4x1x1 : Shape := ⟨3, ![4, 1, 1]⟩
abbrev S4x2x1 : Shape := ⟨3, ![4, 2, 1]⟩

abbrev nBuf : Space → Nat
  | .hbm => 163
  | .vmem => 14
  | .smem => 0
  | _ => 0

abbrev hbmTy0_0 (i : Nat) : BufTy := match i % 128 with
  | 0 => ⟨S2x1600000, .i32⟩
  | 1 => ⟨S1600000, .f32⟩
  | 2 => ⟨S2x1600000, .i32⟩
  | 3 => ⟨S1600000, .f32⟩
  | 4 => ⟨S4x50000x32, .f32⟩
  | 5 => ⟨S32x32, .f32⟩
  | 6 => ⟨S100000, .f32⟩
  | 7 => ⟨S32x16, .f32⟩
  | 8 => ⟨S100000, .f32⟩
  | 9 => ⟨S16x1, .f32⟩
  | 10 => ⟨S1, .f32⟩
  | 11 => ⟨S16x1, .f32⟩
  | 12 => ⟨S1, .f32⟩
  | 13 => ⟨S4x50000x32, .f32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S4x1600000x32, .f32⟩
  | 25 => ⟨S1x1600000x1, .f32⟩
  | 26 => ⟨S4x1600000x32, .f32⟩
  | 27 => ⟨S4x1600000x32, .f32⟩
  | 28 => ⟨S_, .f32⟩
  | 29 => ⟨S4x100000x32, .f32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S4x100000x32, .f32⟩
  | 41 => ⟨S1x1600000, .i32⟩
  | 42 => ⟨S1600000, .i32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1x1600000, .i32⟩
  | 54 => ⟨S1600000, .i32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S4x1600000x32, .f32⟩
  | 64 => ⟨S1x1600000x1, .f32⟩
  | 65 => ⟨S4x1600000x32, .f32⟩
  | 66 => ⟨S4x1600000x32, .f32⟩
  | 67 => ⟨S_, .f32⟩
  | 68 => ⟨S4x50000x32, .f32⟩
  | 69 => ⟨S1x1600000, .i32⟩
  | 70 => ⟨S1600000, .i32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S4x50000x32, .f32⟩
  | 80 => ⟨S4x50000x16, .f32⟩
  | 81 => ⟨S1x1600000, .i32⟩
  | 82 => ⟨S1600000, .i32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S4x1600000x16, .f32⟩
  | 92 => ⟨S1x1600000x1, .f32⟩
  | 93 => ⟨S4x1600000x16, .f32⟩
  | 94 => ⟨S4x1600000x16, .f32⟩
  | 95 => ⟨S_, .f32⟩
  | 96 => ⟨S4x100000x16, .f32⟩
  | 97 => ⟨S1x1600000, .i32⟩
  | 98 => ⟨S1600000, .i32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S4x100000x16, .f32⟩
  | 108 => ⟨S1x1600000, .i32⟩
  | 109 => ⟨S1600000, .i32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000, .f32⟩
  | 120 => ⟨S1x1600000, .i32⟩
  | 121 => ⟨S1600000, .i32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S2x1600000, .i32⟩

abbrev hbmTy0_1 (i : Nat) : BufTy := match i % 128 with
  | 0 => ⟨S1600000, .i32⟩
  | 1 => ⟨S1600000x1, .i32⟩
  | 2 => ⟨S4x1600000x16, .f32⟩
  | 3 => ⟨S1x1600000x1, .f32⟩
  | 4 => ⟨S4x1600000x16, .f32⟩
  | 5 => ⟨S4x1600000x16, .f32⟩
  | 6 => ⟨S_, .f32⟩
  | 7 => ⟨S4x50000x16, .f32⟩
  | 8 => ⟨S1x1600000, .i32⟩
  | 9 => ⟨S1600000, .i32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S4x50000x16, .f32⟩
  | 19 => ⟨S4x50000x16, .f32⟩
  | 20 => ⟨S4x1x16, .f32⟩
  | 21 => ⟨S4x16, .f32⟩
  | 22 => ⟨S4x1, .f32⟩
  | 23 => ⟨S1x1, .f32⟩
  | 24 => ⟨S4x1, .f32⟩
  | 25 => ⟨S4x1, .f32⟩
  | 26 => ⟨S4x1x16, .f32⟩
  | 27 => ⟨S4x16, .f32⟩
  | 28 => ⟨S4x1, .f32⟩
  | 29 => ⟨S1x1, .f32⟩
  | 30 => ⟨S4x1, .f32⟩
  | 31 => ⟨S4x1, .f32⟩
  | 32 => ⟨S4x1x1, .f32⟩
  | 33 => ⟨S4x1x1, .f32⟩
  | 34 => ⟨S4x2x1, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S4x5000x32, .f32⟩
  | .local _ .vmem, ⟨1, _⟩ => ⟨S4x5000x32, .f32⟩
  | .local _ .vmem, ⟨2, _⟩ => ⟨S32x32, .f32⟩
  | .local _ .vmem, ⟨3, _⟩ => ⟨S4x5000x32, .f32⟩
  | .local _ .vmem, ⟨4, _⟩ => ⟨S4x5000x32, .f32⟩
  | .local _ .vmem, ⟨5, _⟩ => ⟨S4x5000x32, .f32⟩
  | .local _ .vmem, ⟨6, _⟩ => ⟨S4x5000x32, .f32⟩
  | .local _ .vmem, ⟨7, _⟩ => ⟨S32x16, .f32⟩
  | .local _ .vmem, ⟨8, _⟩ => ⟨S4x5000x16, .f32⟩
  | .local _ .vmem, ⟨9, _⟩ => ⟨S4x5000x16, .f32⟩
  | .local _ .vmem, ⟨10, _⟩ => ⟨S4x5000x16, .f32⟩
  | .local _ .vmem, ⟨11, _⟩ => ⟨S4x5000x16, .f32⟩
  | .local _ .vmem, ⟨12, _⟩ => ⟨S4x5000x16, .f32⟩
  | .local _ .vmem, ⟨13, _⟩ => ⟨S4x5000x16, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_15 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_17 : Ref sig .tc := ⟨.hbm, 122, rfl⟩
abbrev main_v90 : Ref sig .tc := ⟨.hbm, 123, rfl⟩
abbrev main_v91 : Ref sig .tc := ⟨.hbm, 124, rfl⟩
abbrev main_c_18 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_19 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_20 : Ref sig .tc := ⟨.hbm, 138, rfl⟩
abbrev main_v103 : Ref sig .tc := ⟨.hbm, 139, rfl⟩
abbrev main_v104 : Ref sig .tc := ⟨.hbm, 140, rfl⟩
abbrev main_c_21 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S4x5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S4x5000x32_S4x5000x32_0_0_0 : ∀ a, (![0, 0, 0] : Fin 3 → Nat) a + S4x5000x32.size a ≤ S4x5000x32.size a
  h_S4x5000x32 : 0 < S4x5000x32.numel
  bitsLt_bf16_f32 : FTy.bits .bf16 < FTy.bits .f32
  shapeCasts_S4x5000x32_S20000x32 : S4x5000x32.ShapeCasts S20000x32
  inb_S32x32_S32x32_0_0 : ∀ a, (![0, 0] : Fin 2 → Nat) a + S32x32.size a ≤ S32x32.size a
  h_S32x32 : 0 < S32x32.numel
  shapeCasts_S20000x32_S4x5000x32 : S20000x32.ShapeCasts S4x5000x32
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000_S1x1600000x1_1 : S1600000.BroadcastsInDim S1x1600000x1 (![1] : Fin 1 → Fin S1x1600000x1.rank)
  bcast_S1x1600000x1_S4x1600000x32_0_1_2 : S1x1600000x1.BroadcastsInDim S4x1600000x32 (![0, 1, 2] : Fin 3 → Fin S4x1600000x32.rank)
  bcast_S_S4x100000x32 : S_.BroadcastsInDim S4x100000x32 (![] : Fin 0 → Fin S4x100000x32.rank)
  slices_S2x1600000_S1x1600000_0_0 : S2x1600000.Slices ![0, 0] S1x1600000
  bcast_S_S4x50000x32 : S_.BroadcastsInDim S4x50000x32 (![] : Fin 0 → Fin S4x50000x32.rank)
  shapeCasts_S4x5000x32_S4x5000x32 : S4x5000x32.ShapeCasts S4x5000x32
  inb_S32x16_S32x16_0_0 : ∀ a, (![0, 0] : Fin 2 → Nat) a + S32x16.size a ≤ S32x16.size a
  h_S32x16 : 0 < S32x16.numel
  shapeCasts_S20000x16_S4x5000x16 : S20000x16.ShapeCasts S4x5000x16
  inb_S4x5000x16_S4x5000x16_0_0_0 : ∀ a, (![0, 0, 0] : Fin 3 → Nat) a + S4x5000x16.size a ≤ S4x5000x16.size a
  h_S4x5000x16 : 0 < S4x5000x16.numel
  bcast_S1x1600000x1_S4x1600000x16_0_1_2 : S1x1600000x1.BroadcastsInDim S4x1600000x16 (![0, 1, 2] : Fin 3 → Fin S4x1600000x16.rank)
  bcast_S_S4x100000x16 : S_.BroadcastsInDim S4x100000x16 (![] : Fin 0 → Fin S4x100000x16.rank)
  bcast_S_S4x50000x16 : S_.BroadcastsInDim S4x50000x16 (![] : Fin 0 → Fin S4x50000x16.rank)
  shapeCasts_S4x5000x16_S4x5000x16 : S4x5000x16.ShapeCasts S4x5000x16
  slices_S4x50000x16_S4x1x16_0_49998_0 : S4x50000x16.Slices ![0, 49998, 0] S4x1x16
  shapeCasts_S4x1x16_S4x16 : S4x1x16.ShapeCasts S4x16
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  slices_S4x50000x16_S4x1x16_0_49999_0 : S4x50000x16.Slices ![0, 49999, 0] S4x1x16
  bcast_S4x1_S4x1x1_0_2 : S4x1.BroadcastsInDim S4x1x1 (![0, 2] : Fin 2 → Fin S4x1x1.rank)
  concatenates_S4x1x1_S4x1x1_S4x2x1_d1 : Shape.Concatenates [S4x1x1, S4x1x1] S4x2x1 1
  dot_S20000x32_S32x32_S20000x32_1_0_0_1_n_n_wf : DotDims.WF S20000x32 S32x32 S20000x32 [1] [0] [0] [1] [] []
  gather_S4x50000x32_S1600000x1_S4x1600000x32_02_1_n_n_1_1_4132_wf : GatherDims.WF S4x50000x32 S1600000x1 S4x1600000x32 [0, 2] [1] [] [1] [] 1 ![4, 1, 32]
  scatter_S4x100000x32_S1600000x1_S4x1600000x32_02_1_1_1_wf : ScatterDims.WF S4x100000x32 S1600000x1 S4x1600000x32 [0, 2] [1] [1] 1
  gather_S100000_S1600000x1_S1600000_n_0_n_n_0_1_1_wf : GatherDims.WF S100000 S1600000x1 S1600000 [] [0] [] [0] [] 1 ![1]
  gather_S4x100000x32_S1600000x1_S4x1600000x32_02_1_n_n_1_1_4132_wf : GatherDims.WF S4x100000x32 S1600000x1 S4x1600000x32 [0, 2] [1] [] [1] [] 1 ![4, 1, 32]
  scatter_S4x50000x32_S1600000x1_S4x1600000x32_02_1_1_1_wf : ScatterDims.WF S4x50000x32 S1600000x1 S4x1600000x32 [0, 2] [1] [1] 1
  dot_S20000x32_S32x16_S20000x16_1_0_0_1_n_n_wf : DotDims.WF S20000x32 S32x16 S20000x16 [1] [0] [0] [1] [] []
  gather_S4x50000x16_S1600000x1_S4x1600000x16_02_1_n_n_1_1_4116_wf : GatherDims.WF S4x50000x16 S1600000x1 S4x1600000x16 [0, 2] [1] [] [1] [] 1 ![4, 1, 16]
  scatter_S4x100000x16_S1600000x1_S4x1600000x16_02_1_1_1_wf : ScatterDims.WF S4x100000x16 S1600000x1 S4x1600000x16 [0, 2] [1] [1] 1
  gather_S4x100000x16_S1600000x1_S4x1600000x16_02_1_n_n_1_1_4116_wf : GatherDims.WF S4x100000x16 S1600000x1 S4x1600000x16 [0, 2] [1] [] [1] [] 1 ![4, 1, 16]
  scatter_S4x50000x16_S1600000x1_S4x1600000x16_02_1_1_1_wf : ScatterDims.WF S4x50000x16 S1600000x1 S4x1600000x16 [0, 2] [1] [1] 1
  dot_S4x16_S16x1_S4x1_1_0_0_1_n_n_wf : DotDims.WF S4x16 S16x1 S4x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x32.size a ≤ S4x50000x32.size a
  hwx0_0 : ∀ i : grid0.Coords, EltTy.bits .f32 = 32 ∨ (Rect.block (s := S4x50000x32) S4x5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x5000x32.size a ≤ S4x50000x32.size a
  hwx0_2 : ∀ i : grid0.Coords, EltTy.bits .f32 = 32 ∨ (Rect.block (s := S4x50000x32) S4x5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x5000x32.size a ≤ S4x50000x32.size a
  hwx1_0 : ∀ i : grid1.Coords, EltTy.bits .f32 = 32 ∨ (Rect.block (s := S4x50000x32) S4x5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x5000x16.size a ≤ S4x50000x16.size a
  hwx1_2 : ∀ i : grid1.Coords, EltTy.bits .f32 = 32 ∨ (Rect.block (s := S4x50000x16) S4x5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x5000x16.size a ≤ S4x50000x16.size a
  hwx2_0 : ∀ i : grid2.Coords, EltTy.bits .f32 = 32 ∨ (Rect.block (s := S4x50000x16) S4x5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x5000x16.size a ≤ S4x50000x16.size a
  hwx2_1 : ∀ i : grid2.Coords, EltTy.bits .f32 = 32 ∨ (Rect.block (s := S4x50000x16) S4x5000x16.size (cc2_transform_1 i) (hinb2_1 i)).WholeWords (EltTy.packing .f32)

variable [Facts₀]

def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def gather_S4x50000x32_S1600000x1_S4x1600000x32_02_1_n_n_1_1_4132 : GatherDims S4x50000x32 S1600000x1 S4x1600000x32 where
  offsetDims := [0, 2]
  collapsedSliceDims := [1]
  operandBatchingDims := []
  startIndicesBatchingDims := []
  startIndexMap := [1]
  indexVectorDim := 1
  sliceSizes := ![4, 1, 32]
  wf := gather_S4x50000x32_S1600000x1_S4x1600000x32_02_1_n_n_1_1_4132_wf
def scatter_S4x100000x32_S1600000x1_S4x1600000x32_02_1_1_1 : ScatterDims S4x100000x32 S1600000x1 S4x1600000x32 where
  updateWindowDims := [0, 2]
  insertedWindowDims := [1]
  scatterDimsToOperandDims := [1]
  indexVectorDim := 1
  wf := scatter_S4x100000x32_S1600000x1_S4x1600000x32_02_1_1_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S4x100000x32_S1600000x1_S4x1600000x32_02_1_n_n_1_1_4132 : GatherDims S4x100000x32 S1600000x1 S4x1600000x32 where
  offsetDims := [0, 2]
  collapsedSliceDims := [1]
  operandBatchingDims := []
  startIndicesBatchingDims := []
  startIndexMap := [1]
  indexVectorDim := 1
  sliceSizes := ![4, 1, 32]
  wf := gather_S4x100000x32_S1600000x1_S4x1600000x32_02_1_n_n_1_1_4132_wf
def scatter_S4x50000x32_S1600000x1_S4x1600000x32_02_1_1_1 : ScatterDims S4x50000x32 S1600000x1 S4x1600000x32 where
  updateWindowDims := [0, 2]
  insertedWindowDims := [1]
  scatterDimsToOperandDims := [1]
  indexVectorDim := 1
  wf := scatter_S4x50000x32_S1600000x1_S4x1600000x32_02_1_1_1_wf
def dot_S20000x32_S32x16_S20000x16_1_0_0_1_n_n : DotDims S20000x32 S32x16 S20000x16 where
  lhsContracting := [1]
  rhsContracting := [0]
  lhsNonContracting := [0]
  rhsNonContracting := [1]
  lhsBatch := []
  rhsBatch := []
  wf := dot_S20000x32_S32x16_S20000x16_1_0_0_1_n_n_wf
def gather_S4x50000x16_S1600000x1_S4x1600000x16_02_1_n_n_1_1_4116 : GatherDims S4x50000x16 S1600000x1 S4x1600000x16 where
  offsetDims := [0, 2]
  collapsedSliceDims := [1]
  operandBatchingDims := []
  startIndicesBatchingDims := []
  startIndexMap := [1]
  indexVectorDim := 1
  sliceSizes := ![4, 1, 16]
  wf := gather_S4x50000x16_S1600000x1_S4x1600000x16_02_1_n_n_1_1_4116_wf
def scatter_S4x100000x16_S1600000x1_S4x1600000x16_02_1_1_1 : ScatterDims S4x100000x16 S1600000x1 S4x1600000x16 where
  updateWindowDims := [0, 2]
  insertedWindowDims := [1]
  scatterDimsToOperandDims := [1]
  indexVectorDim := 1
  wf := scatter_S4x100000x16_S1600000x1_S4x1600000x16_02_1_1_1_wf
def gather_S4x100000x16_S1600000x1_S4x1600000x16_02_1_n_n_1_1_4116 : GatherDims S4x100000x16 S1600000x1 S4x1600000x16 where
  offsetDims := [0, 2]
  collapsedSliceDims := [1]
  operandBatchingDims := []
  startIndicesBatchingDims := []
  startIndexMap := [1]
  indexVectorDim := 1
  sliceSizes := ![4, 1, 16]
  wf := gather_S4x100000x16_S1600000x1_S4x1600000x16_02_1_n_n_1_1_4116_wf
def scatter_S4x50000x16_S1600000x1_S4x1600000x16_02_1_1_1 : ScatterDims S4x50000x16 S1600000x1 S4x1600000x16 where
  updateWindowDims := [0, 2]
  insertedWindowDims := [1]
  scatterDimsToOperandDims := [1]
  indexVectorDim := 1
  wf := scatter_S4x50000x16_S1600000x1_S4x1600000x16_02_1_1_1_wf
def dot_S4x16_S16x1_S4x1_1_0_0_1_n_n : DotDims S4x16 S16x1 S4x1 where
  lhsContracting := [1]
  rhsContracting := [0]
  lhsNonContracting := [0]
  rhsNonContracting := [1]
  lhsBatch := []
  rhsBatch := []
  wf := dot_S4x16_S16x1_S4x1_1_0_0_1_n_n_wf

abbrev win0_0 : Pipeline.Window sig grid0 :=
  Pipeline.Window.ofSpec (Memref.whole main_arg4) S4x5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S4x5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S4x5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v109) S4x5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v110) S4x5000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S4x50000x32 : Shape := ⟨3, ![4, 50000, 32]⟩
abbrev S32x32 : Shape := ⟨2, ![32, 32]⟩
abbrev S100000 : Shape := ⟨1, ![100000]⟩
abbrev S32x16 : Shape := ⟨2, ![32, 16]⟩
abbrev S16x1 : Shape := ⟨2, ![16, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S4x1600000x32 : Shape := ⟨3, ![4, 1600000, 32]⟩
abbrev S1x1600000x1 : Shape := ⟨3, ![1, 1600000, 1]⟩
abbrev S4x100000x32 : Shape := ⟨3, ![4, 100000, 32]⟩
abbrev S4x50000x16 : Shape := ⟨3, ![4, 50000, 16]⟩
abbrev S4x1600000x16 : Shape := ⟨3, ![4, 1600000, 16]⟩
abbrev S4x100000x16 : Shape := ⟨3, ![4, 100000, 16]⟩
abbrev S4x1x16 : Shape := ⟨3, ![4, 1, 16]⟩
abbrev S4x16 : Shape := ⟨2, ![4, 16]⟩
abbrev S4x1 : Shape := ⟨2, ![4, 1]⟩
abbrev S1x1 : Shape := ⟨2, ![1, 1]⟩
abbrev S4x1x1 : Shape := ⟨3, ![4, 1, 1]⟩
abbrev S4x2x1 : Shape := ⟨3, ![4, 2, 1]⟩

abbrev nBuf : Space → Nat
  | .hbm => 178
  | .vmem => 0
  | .smem => 0
  | _ => 0

abbrev hbmTy0_0 (i : Nat) : BufTy := match i % 128 with
  | 0 => ⟨S2x1600000, .i32⟩
  | 1 => ⟨S1600000, .f32⟩
  | 2 => ⟨S2x1600000, .i32⟩
  | 3 => ⟨S1600000, .f32⟩
  | 4 => ⟨S4x50000x32, .f32⟩
  | 5 => ⟨S32x32, .f32⟩
  | 6 => ⟨S100000, .f32⟩
  | 7 => ⟨S32x16, .f32⟩
  | 8 => ⟨S100000, .f32⟩
  | 9 => ⟨S16x1, .f32⟩
  | 10 => ⟨S1, .f32⟩
  | 11 => ⟨S16x1, .f32⟩
  | 12 => ⟨S1, .f32⟩
  | 13 => ⟨S4x50000x32, .f32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S4x1600000x32, .f32⟩
  | 25 => ⟨S1x1600000x1, .f32⟩
  | 26 => ⟨S4x1600000x32, .f32⟩
  | 27 => ⟨S4x1600000x32, .f32⟩
  | 28 => ⟨S_, .f32⟩
  | 29 => ⟨S4x100000x32, .f32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S4x100000x32, .f32⟩
  | 41 => ⟨S1x1600000, .i32⟩
  | 42 => ⟨S1600000, .i32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1x1600000, .i32⟩
  | 54 => ⟨S1600000, .i32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S4x1600000x32, .f32⟩
  | 64 => ⟨S1x1600000x1, .f32⟩
  | 65 => ⟨S4x1600000x32, .f32⟩
  | 66 => ⟨S4x1600000x32, .f32⟩
  | 67 => ⟨S_, .f32⟩
  | 68 => ⟨S4x50000x32, .f32⟩
  | 69 => ⟨S1x1600000, .i32⟩
  | 70 => ⟨S1600000, .i32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S4x50000x32, .f32⟩
  | 80 => ⟨S_, .f32⟩
  | 81 => ⟨S_, .f32⟩
  | 82 => ⟨S4x50000x32, .f32⟩
  | 83 => ⟨S4x50000x32, .i1⟩
  | 84 => ⟨S_, .f32⟩
  | 85 => ⟨S4x50000x32, .f32⟩
  | 86 => ⟨S4x50000x32, .f32⟩
  | 87 => ⟨S4x50000x32, .f32⟩
  | 88 => ⟨S4x50000x16, .f32⟩
  | 89 => ⟨S1x1600000, .i32⟩
  | 90 => ⟨S1600000, .i32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S4x1600000x16, .f32⟩
  | 100 => ⟨S1x1600000x1, .f32⟩
  | 101 => ⟨S4x1600000x16, .f32⟩
  | 102 => ⟨S4x1600000x16, .f32⟩
  | 103 => ⟨S_, .f32⟩
  | 104 => ⟨S4x100000x16, .f32⟩
  | 105 => ⟨S1x1600000, .i32⟩
  | 106 => ⟨S1600000, .i32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S4x100000x16, .f32⟩
  | 116 => ⟨S1x1600000, .i32⟩
  | 117 => ⟨S1600000, .i32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S1600000, .f32⟩
  | _ => ⟨S2x1600000, .i32⟩

abbrev hbmTy0_1 (i : Nat) : BufTy := match i % 128 with
  | 0 => ⟨S1x1600000, .i32⟩
  | 1 => ⟨S1600000, .i32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S4x1600000x16, .f32⟩
  | 11 => ⟨S1x1600000x1, .f32⟩
  | 12 => ⟨S4x1600000x16, .f32⟩
  | 13 => ⟨S4x1600000x16, .f32⟩
  | 14 => ⟨S_, .f32⟩
  | 15 => ⟨S4x50000x16, .f32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S4x50000x16, .f32⟩
  | 27 => ⟨S_, .f32⟩
  | 28 => ⟨S_, .f32⟩
  | 29 => ⟨S4x50000x16, .f32⟩
  | 30 => ⟨S4x50000x16, .i1⟩
  | 31 => ⟨S_, .f32⟩
  | 32 => ⟨S4x50000x16, .f32⟩
  | 33 => ⟨S4x50000x16, .f32⟩
  | 34 => ⟨S4x50000x16, .f32⟩
  | 35 => ⟨S4x1x16, .f32⟩
  | 36 => ⟨S4x16, .f32⟩
  | 37 => ⟨S4x1, .f32⟩
  | 38 => ⟨S1x1, .f32⟩
  | 39 => ⟨S4x1, .f32⟩
  | 40 => ⟨S4x1, .f32⟩
  | 41 => ⟨S4x1x16, .f32⟩
  | 42 => ⟨S4x16, .f32⟩
  | 43 => ⟨S4x1, .f32⟩
  | 44 => ⟨S1x1, .f32⟩
  | 45 => ⟨S4x1, .f32⟩
  | 46 => ⟨S4x1, .f32⟩
  | 47 => ⟨S4x1x1, .f32⟩
  | 48 => ⟨S4x1x1, .f32⟩
  | 49 => ⟨S4x2x1, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_c_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_14 : Ref sig .tc := ⟨.hbm, 107, rfl⟩
abbrev main_v72 : Ref sig .tc := ⟨.hbm, 108, rfl⟩
abbrev main_v73 : Ref sig .tc := ⟨.hbm, 109, rfl⟩
abbrev main_c_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_v81 : Ref sig .tc := ⟨.hbm, 119, rfl⟩
abbrev main_v82 : Ref sig .tc := ⟨.hbm, 120, rfl⟩
abbrev main_c_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_18 : Ref sig .tc := ⟨.hbm, 130, rfl⟩
abbrev main_v91 : Ref sig .tc := ⟨.hbm, 131, rfl⟩
abbrev main_v92 : Ref sig .tc := ⟨.hbm, 132, rfl⟩
abbrev main_c_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_20 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_21 : Ref sig .tc := ⟨.hbm, 146, rfl⟩
abbrev main_v104 : Ref sig .tc := ⟨.hbm, 147, rfl⟩
abbrev main_v105 : Ref sig .tc := ⟨.hbm, 148, rfl⟩
abbrev main_c_22 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_23 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000_S1x1600000x1_1 : S1600000.BroadcastsInDim S1x1600000x1 (![1] : Fin 1 → Fin S1x1600000x1.rank)
  bcast_S1x1600000x1_S4x1600000x32_0_1_2 : S1x1600000x1.BroadcastsInDim S4x1600000x32 (![0, 1, 2] : Fin 3 → Fin S4x1600000x32.rank)
  bcast_S_S4x100000x32 : S_.BroadcastsInDim S4x100000x32 (![] : Fin 0 → Fin S4x100000x32.rank)
  slices_S2x1600000_S1x1600000_0_0 : S2x1600000.Slices ![0, 0] S1x1600000
  bcast_S_S4x50000x32 : S_.BroadcastsInDim S4x50000x32 (![] : Fin 0 → Fin S4x50000x32.rank)
  bcast_S1x1600000x1_S4x1600000x16_0_1_2 : S1x1600000x1.BroadcastsInDim S4x1600000x16 (![0, 1, 2] : Fin 3 → Fin S4x1600000x16.rank)
  bcast_S_S4x100000x16 : S_.BroadcastsInDim S4x100000x16 (![] : Fin 0 → Fin S4x100000x16.rank)
  bcast_S_S4x50000x16 : S_.BroadcastsInDim S4x50000x16 (![] : Fin 0 → Fin S4x50000x16.rank)
  slices_S4x50000x16_S4x1x16_0_49998_0 : S4x50000x16.Slices ![0, 49998, 0] S4x1x16
  shapeCasts_S4x1x16_S4x16 : S4x1x16.ShapeCasts S4x16
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  slices_S4x50000x16_S4x1x16_0_49999_0 : S4x50000x16.Slices ![0, 49999, 0] S4x1x16
  bcast_S4x1_S4x1x1_0_2 : S4x1.BroadcastsInDim S4x1x1 (![0, 2] : Fin 2 → Fin S4x1x1.rank)
  concatenates_S4x1x1_S4x1x1_S4x2x1_d1 : Shape.Concatenates [S4x1x1, S4x1x1] S4x2x1 1
  dot_S4x50000x32_S32x32_S4x50000x32_2_0_01_1_n_n_wf : DotDims.WF S4x50000x32 S32x32 S4x50000x32 [2] [0] [0, 1] [1] [] []
  gather_S4x50000x32_S1600000x1_S4x1600000x32_02_1_n_n_1_1_4132_wf : GatherDims.WF S4x50000x32 S1600000x1 S4x1600000x32 [0, 2] [1] [] [1] [] 1 ![4, 1, 32]
  scatter_S4x100000x32_S1600000x1_S4x1600000x32_02_1_1_1_wf : ScatterDims.WF S4x100000x32 S1600000x1 S4x1600000x32 [0, 2] [1] [1] 1
  gather_S100000_S1600000x1_S1600000_n_0_n_n_0_1_1_wf : GatherDims.WF S100000 S1600000x1 S1600000 [] [0] [] [0] [] 1 ![1]
  gather_S4x100000x32_S1600000x1_S4x1600000x32_02_1_n_n_1_1_4132_wf : GatherDims.WF S4x100000x32 S1600000x1 S4x1600000x32 [0, 2] [1] [] [1] [] 1 ![4, 1, 32]
  scatter_S4x50000x32_S1600000x1_S4x1600000x32_02_1_1_1_wf : ScatterDims.WF S4x50000x32 S1600000x1 S4x1600000x32 [0, 2] [1] [1] 1
  dot_S4x50000x32_S32x16_S4x50000x16_2_0_01_1_n_n_wf : DotDims.WF S4x50000x32 S32x16 S4x50000x16 [2] [0] [0, 1] [1] [] []
  gather_S4x50000x16_S1600000x1_S4x1600000x16_02_1_n_n_1_1_4116_wf : GatherDims.WF S4x50000x16 S1600000x1 S4x1600000x16 [0, 2] [1] [] [1] [] 1 ![4, 1, 16]
  scatter_S4x100000x16_S1600000x1_S4x1600000x16_02_1_1_1_wf : ScatterDims.WF S4x100000x16 S1600000x1 S4x1600000x16 [0, 2] [1] [1] 1
  gather_S4x100000x16_S1600000x1_S4x1600000x16_02_1_n_n_1_1_4116_wf : GatherDims.WF S4x100000x16 S1600000x1 S4x1600000x16 [0, 2] [1] [] [1] [] 1 ![4, 1, 16]
  scatter_S4x50000x16_S1600000x1_S4x1600000x16_02_1_1_1_wf : ScatterDims.WF S4x50000x16 S1600000x1 S4x1600000x16 [0, 2] [1] [1] 1
  dot_S4x16_S16x1_S4x1_1_0_0_1_n_n_wf : DotDims.WF S4x16 S16x1 S4x1 [1] [0] [0] [1] [] []

variable [Facts₀]

def dot_S4x50000x32_S32x32_S4x50000x32_2_0_01_1_n_n : DotDims S4x50000x32 S32x32 S4x50000x32 where
  lhsContracting := [2]
  rhsContracting := [0]
  lhsNonContracting := [0, 1]
  rhsNonContracting := [1]
  lhsBatch := []
  rhsBatch := []
  wf := dot_S4x50000x32_S32x32_S4x50000x32_2_0_01_1_n_n_wf
def gather_S4x50000x32_S1600000x1_S4x1600000x32_02_1_n_n_1_1_4132 : GatherDims S4x50000x32 S1600000x1 S4x1600000x32 where
  offsetDims := [0, 2]
  collapsedSliceDims := [1]
  operandBatchingDims := []
  startIndicesBatchingDims := []
  startIndexMap := [1]
  indexVectorDim := 1
  sliceSizes := ![4, 1, 32]
  wf := gather_S4x50000x32_S1600000x1_S4x1600000x32_02_1_n_n_1_1_4132_wf
def scatter_S4x100000x32_S1600000x1_S4x1600000x32_02_1_1_1 : ScatterDims S4x100000x32 S1600000x1 S4x1600000x32 where
  updateWindowDims := [0, 2]
  insertedWindowDims := [1]
  scatterDimsToOperandDims := [1]
  indexVectorDim := 1
  wf := scatter_S4x100000x32_S1600000x1_S4x1600000x32_02_1_1_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S4x100000x32_S1600000x1_S4x1600000x32_02_1_n_n_1_1_4132 : GatherDims S4x100000x32 S1600000x1 S4x1600000x32 where
  offsetDims := [0, 2]
  collapsedSliceDims := [1]
  operandBatchingDims := []
  startIndicesBatchingDims := []
  startIndexMap := [1]
  indexVectorDim := 1
  sliceSizes := ![4, 1, 32]
  wf := gather_S4x100000x32_S1600000x1_S4x1600000x32_02_1_n_n_1_1_4132_wf
def scatter_S4x50000x32_S1600000x1_S4x1600000x32_02_1_1_1 : ScatterDims S4x50000x32 S1600000x1 S4x1600000x32 where
  updateWindowDims := [0, 2]
  insertedWindowDims := [1]
  scatterDimsToOperandDims := [1]
  indexVectorDim := 1
  wf := scatter_S4x50000x32_S1600000x1_S4x1600000x32_02_1_1_1_wf
def dot_S4x50000x32_S32x16_S4x50000x16_2_0_01_1_n_n : DotDims S4x50000x32 S32x16 S4x50000x16 where
  lhsContracting := [2]
  rhsContracting := [0]
  lhsNonContracting := [0, 1]
  rhsNonContracting := [1]
  lhsBatch := []
  rhsBatch := []
  wf := dot_S4x50000x32_S32x16_S4x50000x16_2_0_01_1_n_n_wf
def gather_S4x50000x16_S1600000x1_S4x1600000x16_02_1_n_n_1_1_4116 : GatherDims S4x50000x16 S1600000x1 S4x1600000x16 where
  offsetDims := [0, 2]
  collapsedSliceDims := [1]
  operandBatchingDims := []
  startIndicesBatchingDims := []
  startIndexMap := [1]
  indexVectorDim := 1
  sliceSizes := ![4, 1, 16]
  wf := gather_S4x50000x16_S1600000x1_S4x1600000x16_02_1_n_n_1_1_4116_wf
def scatter_S4x100000x16_S1600000x1_S4x1600000x16_02_1_1_1 : ScatterDims S4x100000x16 S1600000x1 S4x1600000x16 where
  updateWindowDims := [0, 2]
  insertedWindowDims := [1]
  scatterDimsToOperandDims := [1]
  indexVectorDim := 1
  wf := scatter_S4x100000x16_S1600000x1_S4x1600000x16_02_1_1_1_wf
def gather_S4x100000x16_S1600000x1_S4x1600000x16_02_1_n_n_1_1_4116 : GatherDims S4x100000x16 S1600000x1 S4x1600000x16 where
  offsetDims := [0, 2]
  collapsedSliceDims := [1]
  operandBatchingDims := []
  startIndicesBatchingDims := []
  startIndexMap := [1]
  indexVectorDim := 1
  sliceSizes := ![4, 1, 16]
  wf := gather_S4x100000x16_S1600000x1_S4x1600000x16_02_1_n_n_1_1_4116_wf
def scatter_S4x50000x16_S1600000x1_S4x1600000x16_02_1_1_1 : ScatterDims S4x50000x16 S1600000x1 S4x1600000x16 where
  updateWindowDims := [0, 2]
  insertedWindowDims := [1]
  scatterDimsToOperandDims := [1]
  indexVectorDim := 1
  wf := scatter_S4x50000x16_S1600000x1_S4x1600000x16_02_1_1_1_wf
def dot_S4x16_S16x1_S4x1_1_0_0_1_n_n : DotDims S4x16 S16x1 S4x1 where
  lhsContracting := [1]
  rhsContracting := [0]
  lhsNonContracting := [0]
  rhsNonContracting := [1]
  lhsBatch := []
  rhsBatch := []
  wf := dot_S4x16_S16x1_S4x1_1_0_0_1_n_n_wf

class Facts : Prop extends Facts₀ where

variable [Facts]
-- ==== Proof.KernelRun.lean ====
/-
  The idealized kernel's run, with every buffer named.

  The program's @main is three tiled regions among three stretches of host operations. The generated frame module
  runs it segment by segment and keeps, at every segment boundary, the contents of every buffer as a fold from the
  launch memory: `W1` after the first region (its output array at what the ten write-backs leave), `W2` after the
  first host stretch, and so on to `W6` at the return. The frame theorem reads only the argument arrays off the
  last state; here the same run is read at EVERY unscoped buffer, so that the result buffer's final contents are
  `W6` at that buffer: a value, as a fold, that the rest of the proof evaluates.
-/
import proofs.«155567_j79869211836445_1_alg».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every unscoped
    buffer `b` of every core `c` holds `W6 m ρ c b`, the fold of the three regions and the three host stretches
    over the launch memory. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.KernelIdeal.Hand

end
-- ==== Proof.RefOps.lean ====
/- The reference program's host operations as lists, transcribed line by line from the printed @main of
   proof/ReferenceIdeal.lean (each statement 'hlo rfl (op) ...' gives 'op'; each call of the leaky rectifier gives its
   function's seven operations over that call's buffers), cut where the mathematics changes hands: a projection, a
   sparse gather / scatter-add stretch, a leaky rectifier, the read-out. A table, no argument: the modules that
   import it prove that @main is the sequence of these lists and what the sequence computes. -/
import proofs.«155567_j79869211836445_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem

variable {F : FTy → Type} [FloatOps F] [Facts]

open Facts₀ Facts

set_option maxHeartbeats 40000000 in
/-- The first projection, x · W1: one dot_general (1 operation). -/
abbrev layer1_dot : List (HloOp τ sig (Elt F)) :=
  ( StableHlo.binary main_arg4 main_arg5 main_v0 ((fun l r => Host.dotGeneral dot_S4x50000x32_S32x32_S4x50000x32_2_0_01_1_n_n none l r) : (⟨S4x50000x32, .f32⟩ : BufTy).Contents (Elt F) → (⟨S32x32, .f32⟩ : BufTy).Contents (Elt F) → (⟨S4x50000x32, .f32⟩ : BufTy).Contents (Elt F))
  :: [] )

set_option maxHeartbeats 40000000 in
/-- The first layer's sparse gather / scatter-add stretch, the part in @main's first window (59 operations). -/
abbrev wavelet1_head : List (HloOp τ sig (Elt F)) :=
  ( StableHlo.unary main_arg0 main_v1 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v1 main_v2 rfl shapeCasts_S1x1600000_S1600000
  :: StableHlo.nullary main_c (constantI S_ 32 0#32)
  :: StableHlo.unary main_c main_v3 (broadcastInDim S1600000 ![] bcast_S_S1600000 : (⟨S_, .i32⟩ : BufTy).Contents (Elt F) → (⟨S1600000, .i32⟩ : BufTy).Contents (Elt F))
  :: StableHlo.binary main_v2 main_v3 main_v4 (cmpi .slt : (⟨S1600000, .i32⟩ : BufTy).Contents (Elt F) → (⟨S1600000, .i32⟩ : BufTy).Contents (Elt F) → (⟨S1600000, .i1⟩ : BufTy).Contents (Elt F))
  :: StableHlo.nullary main_c_0 (constantI S_ 32 50000#32)
  :: StableHlo.unary main_c_0 main_v5 (broadcastInDim S1600000 ![] bcast_S_S1600000 : (⟨S_, .i32⟩ : BufTy).Contents (Elt F) → (⟨S1600000, .i32⟩ : BufTy).Contents (Elt F))
  :: StableHlo.binary main_v2 main_v5 main_v6 (addi : (⟨S1600000, .i32⟩ : BufTy).Contents (Elt F) → (⟨S1600000, .i32⟩ : BufTy).Contents (Elt F) → (⟨S1600000, .i32⟩ : BufTy).Contents (Elt F))
  :: StableHlo.ternary main_v4 main_v6 main_v2 main_v7 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v7 main_v8 (broadcastInDim S1600000x1 ![0] bcast_S1600000_S1600000x1_0 : (⟨S1600000, .i32⟩ : BufTy).Contents (Elt F) → (⟨S1600000x1, .i32⟩ : BufTy).Contents (Elt F))
  :: StableHlo.binary main_v0 main_v8 main_v9 ((fun x i => Host.gather gather_S4x50000x32_S1600000x1_S4x1600000x32_02_1_n_n_1_1_4132 x i) : (⟨S4x50000x32, .f32⟩ : BufTy).Contents (Elt F) → (⟨S1600000x1, .i32⟩ : BufTy).Contents (Elt F) → (⟨S4x1600000x32, .f32⟩ : BufTy).Contents (Elt F))
  :: StableHlo.unary main_arg1 main_v10 (broadcastInDim S1x1600000x1 ![1] bcast_S1600000_S1x1600000x1_1 : (⟨S1600000, .f32⟩ : BufTy).Contents (Elt F) → (⟨S1x1600000x1, .f32⟩ : BufTy).Contents (Elt F))
  :: StableHlo.unary main_v10 main_v11 (broadcastInDim S4x1600000x32 ![0, 1, 2] bcast_S1x1600000x1_S4x1600000x32_0_1_2 : (⟨S1x1600000x1, .f32⟩ : BufTy).Contents (Elt F) → (⟨S4x1600000x32, .f32⟩ : BufTy).Contents (Elt F))
  :: StableHlo.binary main_v9 main_v11 main_v12 (mulf : (⟨S4x1600000x32, .f32⟩ : BufTy).Contents (Elt F) → (⟨S4x1600000x32, .f32⟩ : BufTy).Contents (Elt F) → (⟨S4x1600000x32, .f32⟩ : BufTy).Contents (Elt F))
  :: StableHlo.nullary main_cst (constant S_ .f32 0x00000000#32)
  :: StableHlo.unary main_cst main_v13 (broadcastInDim S4x100000x32 ![] bcast_S_S4x100000x32 : (⟨S_, .f32⟩ : BufTy).Contents (Elt F) → (⟨S4x100000x32, .f32⟩ : BufTy).Contents (Elt F))
  :: StableHlo.unary main_arg0 main_v14 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v14 main_v15 rfl shapeCasts_S1x1600000_S1600000
  :: StableHlo.nullary main_c_1 (constantI S_ 32 0#32)
  :: StableHlo.unary main_c_1 main_v16 (broadcastInDim S1600000 ![] bcast_S_S1600000 : (⟨S_, .i32⟩ : BufTy).Contents (Elt F) → (⟨S1600000, .i32⟩ : BufTy).Contents (Elt F))
  :: StableHlo.binary main_v15 main_v16 main_v17 (cmpi .slt : (⟨S1600000, .i32⟩ : BufTy).Contents (Elt F) → (⟨S1600000, .i32⟩ : BufTy).Contents (Elt F) → (⟨S1600000, .i1⟩ : BufTy).Contents (Elt F))
  :: StableHlo.nullary main_c_2 (constantI S_ 32 100000#32)
  :: StableHlo.unary main_c_2 main_v18 (broadcastInDim S1600000 ![] bcast_S_S1600000 : (⟨S_, .i32⟩ : BufTy).Contents (Elt F) → (⟨S1600000, .i32⟩ : BufTy).Contents (Elt F))
  :: StableHlo.binary main_v15 main_v18 main_v19 (addi : (⟨S1600000, .i32⟩ : BufTy).Contents (Elt F) → (⟨S1600000, .i32⟩ : BufTy).Contents (Elt F) → (⟨S1600000, .i32⟩ : BufTy).Contents (Elt F))
  :: StableHlo.ternary main_v17 main_v19 main_v15 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v20 main_v21 (broadcastInDim S1600000x1 ![0] bcast_S1600000_S1600000x1_0 : (⟨S1600000, .i32⟩ : BufTy).Contents (Elt F) → (⟨S1600000x1, .i32⟩ : BufTy).Contents (Elt F))
  :: StableHlo.ternary main_v13 main_v21 main_v12 main_v22 ((fun x i u => Host.scatterAdd scatter_S4x100000x32_S1600000x1_S4x1600000x32_02_1_1_1 x i u) : (⟨S4x100000x32, .f32⟩ : BufTy).Contents (Elt F) → (⟨S1600000x1, .i32⟩ : BufTy).Contents (Elt F) → (⟨S4x1600000x32, .f32⟩ : BufTy).Contents (Elt F) → (⟨S4x100000x32, .f32⟩ : BufTy).Contents (Elt F))
  :: StableHlo.unary main_arg2 main_v23 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v23 main_v24 rfl shapeCasts_S1x1600000_S1600000
  :: StableHlo.nullary main_c_3 (constantI S_ 32 0#32)
  :: StableHlo.unary main_c_3 main_v25 (broadcastInDim S1600000 ![] bcast_S_S1600000 : (⟨S_, .i32⟩ : BufTy).Contents (Elt F) → (⟨S1600000, .i32⟩ : BufTy).Contents (Elt F))
  :: StableHlo.binary main_v24 main_v25 main_v26 (cmpi .slt : (⟨S1600000, .i32⟩ : BufTy).Contents (Elt F) → (⟨S1600000, .i32⟩ : BufTy).Contents (Elt F) → (⟨S1600000, .i1⟩ : BufTy).Contents (Elt F))
  :: StableHlo.nullary main_c_4 (constantI S_ 32 100000#32)
  :: StableHlo.unary main_c_4 main_v27 (broadcastInDim S1600000 ![] bcast_S_S1600000 : (⟨S_, .i32⟩ : BufTy).Contents (Elt F) → (⟨S1600000, .i32⟩ : BufTy).Contents (Elt F))
  :: StableHlo.binary main_v24 main_v27 main_v28 (addi : (⟨S1600000, .i32⟩ : BufTy).Contents (Elt F) → (⟨S1600000, .i32⟩ : BufTy).Contents (Elt F) → (⟨S1600000, .i32⟩ : BufTy).Contents (Elt F))
  :: StableHlo.ternary main_v26 main_v28 main_v24 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v29 main_v30 (broadcastInDim S1600000x1 ![0] bcast_S1600000_S1600000x1_0 : (⟨S1600000, .i32⟩ : BufTy).Contents (Elt F) → (⟨S1600000x1, .i32⟩ : BufTy).Contents (Elt F))
  :: StableHlo.binary main_arg6 main_v30 main_v31 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F))
  :: StableHlo.binary main_arg3 main_v31 main_v32 (mulf : (⟨S1600000, .f32⟩ : BufTy).Contents (Elt F) → (⟨S1600000, .f32⟩ : BufTy).Contents (Elt F) → (⟨S1600000, .f32⟩ : BufTy).Contents (Elt F))
  :: StableHlo.unary main_arg2 main_v33 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v33 main_v34 rfl shapeCasts_S1x1600000_S1600000
  :: StableHlo.nullary main_c_5 (constantI S_ 32 0#32)
  :: StableHlo.unary main_c_5 main_v35 (broadcastInDim S1600000 ![] bcast_S_S1600000 : (⟨S_, .i32⟩ : BufTy).Contents (Elt F) → (⟨S1600000, .i32⟩ : BufTy).Contents (Elt F))
  :: StableHlo.binary main_v34 main_v35 main_v36 (cmpi .slt : (⟨S1600000, .i32⟩ : BufTy).Contents (Elt F) → (⟨S1600000, .i32⟩ : BufTy).Contents (Elt F) → (⟨S1600000, .i1⟩ : BufTy).Contents (Elt F))
  :: StableHlo.nullary main_c_6 (constantI S_ 32 100000#32)
  :: StableHlo.unary main_c_6 main_v37 (broadcastInDim S1600000 ![] bcast_S_S1600000 : (⟨S_, .i32⟩ : BufTy).Contents (Elt F) → (⟨S1600000, .i32⟩ : BufTy).Contents (Elt F))
  :: StableHlo.binary main_v34 main_v37 main_v38 (addi : (⟨S1600000, .i32⟩ : BufTy).Contents (Elt F) → (⟨S1600000, .i32⟩ : BufTy).Contents (Elt F) → (⟨S1600000, .i32⟩ : BufTy).Contents (Elt F))
  :: StableHlo.ternary main_v36 main_v38 main_v34 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v39 main_v40 (broadcastInDim S1600000x1 ![0] bcast_S1600000_S1600000x1_0 : (⟨S1600000, .i32⟩ : BufTy).Contents (Elt F) → (⟨S1600000x1, .i32⟩ : BufTy).Contents (Elt F))
  :: StableHlo.binary main_v22 main_v40 main_v41 ((fun x i => Host.gather gather_S4x100000x32_S1600000x1_S4x1600000x32_02_1_n_n_1_1_4132 x i) : (⟨S4x100000x32, .f32⟩ : BufTy).Contents (Elt F) → (⟨S1600000x1, .i32⟩ : BufTy).Contents (Elt F) → (⟨S4x1600000x32, .f32⟩ : BufTy).Contents (Elt F))
  :: StableHlo.unary main_v32 main_v42 (broadcastInDim S1x1600000x1 ![1] bcast_S1600000_S1x1600000x1_1 : (⟨S1600000, .f32⟩ : BufTy).Contents (Elt F) → (⟨S1x1600000x1, .f32⟩ : BufTy).Contents (Elt F))
  :: StableHlo.unary main_v42 main_v43 (broadcastInDim S4x1600000x32 ![0, 1, 2] bcast_S1x1600000x1_S4x1600000x32_0_1_2 : (⟨S1x1600000x1, .f32⟩ : BufTy).Contents (Elt F) → (⟨S4x1600000x32, .f32⟩ : BufTy).Contents (Elt F))
  :: StableHlo.binary main_v41 main_v43 main_v44 (mulf : (⟨S4x1600000x32, .f32⟩ : BufTy).Contents (Elt F) → (⟨S4x1600000x32, .f32⟩ : BufTy).Contents (Elt F) → (⟨S4x1600000x32, .f32⟩ : BufTy).Contents (Elt F))
  :: StableHlo.nullary main_cst_7 (constant S_ .f32 0x00000000#32)
  :: StableHlo.unary main_cst_7 main_v45 (broadcastInDim S4x50000x32 ![] bcast_S_S4x50000x32 : (⟨S_, .f32⟩ : BufTy).Contents (Elt F) → (⟨S4x50000x32, .f32⟩ : BufTy).Contents (Elt F))
  :: StableHlo.unary main_arg2 main_v46 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v46 main_v47 rfl shapeCasts_S1x1600000_S1600000
  :: StableHlo.nullary main_c_8 (constantI S_ 32 0#32)
  :: StableHlo.unary main_c_8 main_v48 (broadcastInDim S1600000 ![] bcast_S_S1600000 : (⟨S_, .i32⟩ : BufTy).Contents (Elt F) → (⟨S1600000, .i32⟩ : BufTy).Contents (Elt F))
  :: [] )

set_option maxHeartbeats 40000000 in
/-- The first layer's sparse stretch, the rest (up to the scatter-add that ends the layer) (7 operations). -/
abbrev wavelet1_tail : List (HloOp τ sig (Elt F)) :=
  ( StableHlo.binary main_v47 main_v48 main_v49 (cmpi .slt : (⟨S1600000, .i32⟩ : BufTy).Contents (Elt F) → (⟨S1600000, .i32⟩ : BufTy).Contents (Elt F) → (⟨S1600000, .i1⟩ : BufTy).Contents (Elt F))
  :: StableHlo.nullary main_c_9 (constantI S_ 32 50000#32)
  :: StableHlo.unary main_c_9 main_v50 (broadcastInDim S1600000 ![] bcast_S_S1600000 : (⟨S_, .i32⟩ : BufTy).Contents (Elt F) → (⟨S1600000, .i32⟩ : BufTy).Contents (Elt F))
  :: StableHlo.binary main_v47 main_v50 main_v51 (addi : (⟨S1600000, .i32⟩ : BufTy).Contents (Elt F) → (⟨S1600000, .i32⟩ : BufTy).Contents (Elt F) → (⟨S1600000, .i32⟩ : BufTy).Contents (Elt F))
  :: StableHlo.ternary main_v49 main_v51 main_v47 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v52 main_v53 (broadcastInDim S1600000x1 ![0] bcast_S1600000_S1600000x1_0 : (⟨S1600000, .i32⟩ : BufTy).Contents (Elt F) → (⟨S1600000x1, .i32⟩ : BufTy).Contents (Elt F))
  :: StableHlo.ternary main_v45 main_v53 main_v44 main_v54 ((fun x i u => Host.scatterAdd scatter_S4x50000x32_S1600000x1_S4x1600000x32_02_1_1_1 x i u) : (⟨S4x50000x32, .f32⟩ : BufTy).Contents (Elt F) → (⟨S1600000x1, .i32⟩ : BufTy).Contents (Elt F) → (⟨S4x1600000x32, .f32⟩ : BufTy).Contents (Elt F) → (⟨S4x50000x32, .f32⟩ : BufTy).Contents (Elt F))
  :: [] )

set_option maxHeartbeats 40000000 in
/-- The slope constant of the first leaky rectifier (1 operation). -/
abbrev slope1 : List (HloOp τ sig (Elt F)) :=
  ( StableHlo.nullary main_cst_10 (constant S_ .f32 0x3E4CCCCD#32)
  :: [] )

set_option maxHeartbeats 40000000 in
/-- The first leaky rectifier: its function's seven operations over the call's own buffers (7 operations). -/
abbrev leaky1 : List (HloOp τ sig (Elt F)) :=
  ( StableHlo.TRef.nullary main_call0.cst (constant S_ .f32 0x00000000#32)
  :: StableHlo.TRef.unary main_call0.cst main_call0.v0 (broadcastInDim S4x50000x32 ![] bcast_S_S4x50000x32)
  :: StableHlo.TRef.binary (.of main_v54) main_call0.v0 main_call0.v1 (cmpf .oge)
  :: StableHlo.TRef.unary (.of main_cst_10) main_call0.v2 id
  :: StableHlo.TRef.unary main_call0.v2 main_call0.v3 (broadcastInDim S4x50000x32 ![] bcast_S_S4x50000x32)
  :: StableHlo.TRef.binary main_call0.v3 (.of main_v54) main_call0.v4 mulf
  :: StableHlo.TRef.ternary main_call0.v1 (.of main_v54) main_call0.v4 main_call0.call0.v0 select
  :: [] )

set_option maxHeartbeats 40000000 in
/-- The second projection, leaky(out1) · W2: one dot_general (1 operation). -/
abbrev layer2_dot : List (HloOp τ sig (Elt F)) :=
  ( StableHlo.binary main_v55 main_arg7 main_v56 ((fun l r => Host.dotGeneral dot_S4x50000x32_S32x16_S4x50000x16_2_0_01_1_n_n none l r) : (⟨S4x50000x32, .f32⟩ : BufTy).Contents (Elt F) → (⟨S32x16, .f32⟩ : BufTy).Contents (Elt F) → (⟨S4x50000x16, .f32⟩ : BufTy).Contents (Elt F))
  :: [] )

set_option maxHeartbeats 40000000 in
/-- The second layer's sparse stretch, the part in @main's second window (50 operations). -/
abbrev wavelet2_head : List (HloOp τ sig (Elt F)) :=
  ( StableHlo.unary main_arg0 main_v57 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v57 main_v58 rfl shapeCasts_S1x1600000_S1600000
  :: StableHlo.nullary main_c_11 (constantI S_ 32 0#32)
  :: StableHlo.unary main_c_11 main_v59 (broadcastInDim S1600000 ![] bcast_S_S1600000 : (⟨S_, .i32⟩ : BufTy).Contents (Elt F) → (⟨S1600000, .i32⟩ : BufTy).Contents (Elt F))
  :: StableHlo.binary main_v58 main_v59 main_v60 (cmpi .slt : (⟨S1600000, .i32⟩ : BufTy).Contents (Elt F) → (⟨S1600000, .i32⟩ : BufTy).Contents (Elt F) → (⟨S1600000, .i1⟩ : BufTy).Contents (Elt F))
  :: StableHlo.nullary main_c_12 (constantI S_ 32 50000#32)
  :: StableHlo.unary main_c_12 main_v61 (broadcastInDim S1600000 ![] bcast_S_S1600000 : (⟨S_, .i32⟩ : BufTy).Contents (Elt F) → (⟨S1600000, .i32⟩ : BufTy).Contents (Elt F))
  :: StableHlo.binary main_v58 main_v61 main_v62 (addi : (⟨S1600000, .i32⟩ : BufTy).Contents (Elt F) → (⟨S1600000, .i32⟩ : BufTy).Contents (Elt F) → (⟨S1600000, .i32⟩ : BufTy).Contents (Elt F))
  :: StableHlo.ternary main_v60 main_v62 main_v58 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v63 main_v64 (broadcastInDim S1600000x1 ![0] bcast_S1600000_S1600000x1_0 : (⟨S1600000, .i32⟩ : BufTy).Contents (Elt F) → (⟨S1600000x1, .i32⟩ : BufTy).Contents (Elt F))
  :: StableHlo.binary main_v56 main_v64 main_v65 ((fun x i => Host.gather gather_S4x50000x16_S1600000x1_S4x1600000x16_02_1_n_n_1_1_4116 x i) : (⟨S4x50000x16, .f32⟩ : BufTy).Contents (Elt F) → (⟨S1600000x1, .i32⟩ : BufTy).Contents (Elt F) → (⟨S4x1600000x16, .f32⟩ : BufTy).Contents (Elt F))
  :: StableHlo.unary main_arg1 main_v66 (broadcastInDim S1x1600000x1 ![1] bcast_S1600000_S1x1600000x1_1 : (⟨S1600000, .f32⟩ : BufTy).Contents (Elt F) → (⟨S1x1600000x1, .f32⟩ : BufTy).Contents (Elt F))
  :: StableHlo.unary main_v66 main_v67 (broadcastInDim S4x1600000x16 ![0, 1, 2] bcast_S1x1600000x1_S4x1600000x16_0_1_2 : (⟨S1x1600000x1, .f32⟩ : BufTy).Contents (Elt F) → (⟨S4x1600000x16, .f32⟩ : BufTy).Contents (Elt F))
  :: StableHlo.binary main_v65 main_v67 main_v68 (mulf : (⟨S4x1600000x16, .f32⟩ : BufTy).Contents (Elt F) → (⟨S4x1600000x16, .f32⟩ : BufTy).Contents (Elt F) → (⟨S4x1600000x16, .f32⟩ : BufTy).Contents (Elt F))
  :: StableHlo.nullary main_cst_13 (constant S_ .f32 0x00000000#32)
  :: StableHlo.unary main_cst_13 main_v69 (broadcastInDim S4x100000x16 ![] bcast_S_S4x100000x16 : (⟨S_, .f32⟩ : BufTy).Contents (Elt F) → (⟨S4x100000x16, .f32⟩ : BufTy).Contents (Elt F))
  :: StableHlo.unary main_arg0 main_v70 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v70 main_v71 rfl shapeCasts_S1x1600000_S1600000
  :: StableHlo.nullary main_c_14 (constantI S_ 32 0#32)
  :: StableHlo.unary main_c_14 main_v72 (broadcastInDim S1600000 ![] bcast_S_S1600000 : (⟨S_, .i32⟩ : BufTy).Contents (Elt F) → (⟨S1600000, .i32⟩ : BufTy).Contents (Elt F))
  :: StableHlo.binary main_v71 main_v72 main_v73 (cmpi .slt : (⟨S1600000, .i32⟩ : BufTy).Contents (Elt F) → (⟨S1600000, .i32⟩ : BufTy).Contents (Elt F) → (⟨S1600000, .i1⟩ : BufTy).Contents (Elt F))
  :: StableHlo.nullary main_c_15 (constantI S_ 32 100000#32)
  :: StableHlo.unary main_c_15 main_v74 (broadcastInDim S1600000 ![] bcast_S_S1600000 : (⟨S_, .i32⟩ : BufTy).Contents (Elt F) → (⟨S1600000, .i32⟩ : BufTy).Contents (Elt F))
  :: StableHlo.binary main_v71 main_v74 main_v75 (addi : (⟨S1600000, .i32⟩ : BufTy).Contents (Elt F) → (⟨S1600000, .i32⟩ : BufTy).Contents (Elt F) → (⟨S1600000, .i32⟩ : BufTy).Contents (Elt F))
  :: StableHlo.ternary main_v73 main_v75 main_v71 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v76 main_v77 (broadcastInDim S1600000x1 ![0] bcast_S1600000_S1600000x1_0 : (⟨S1600000, .i32⟩ : BufTy).Contents (Elt F) → (⟨S1600000x1, .i32⟩ : BufTy).Contents (Elt F))
  :: StableHlo.ternary main_v69 main_v77 main_v68 main_v78 ((fun x i u => Host.scatterAdd scatter_S4x100000x16_S1600000x1_S4x1600000x16_02_1_1_1 x i u) : (⟨S4x100000x16, .f32⟩ : BufTy).Contents (Elt F) → (⟨S1600000x1, .i32⟩ : BufTy).Contents (Elt F) → (⟨S4x1600000x16, .f32⟩ : BufTy).Contents (Elt F) → (⟨S4x100000x16, .f32⟩ : BufTy).Contents (Elt F))
  :: StableHlo.unary main_arg2 main_v79 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v79 main_v80 rfl shapeCasts_S1x1600000_S1600000
  :: StableHlo.nullary main_c_16 (constantI S_ 32 0#32)
  :: StableHlo.unary main_c_16 main_v81 (broadcastInDim S1600000 ![] bcast_S_S1600000 : (⟨S_, .i32⟩ : BufTy).Contents (Elt F) → (⟨S1600000, .i32⟩ : BufTy).Contents (Elt F))
  :: StableHlo.binary main_v80 main_v81 main_v82 (cmpi .slt : (⟨S1600000, .i32⟩ : BufTy).Contents (Elt F) → (⟨S1600000, .i32⟩ : BufTy).Contents (Elt F) → (⟨S1600000, .i1⟩ : BufTy).Contents (Elt F))
  :: StableHlo.nullary main_c_17 (constantI S_ 32 100000#32)
  :: StableHlo.unary main_c_17 main_v83 (broadcastInDim S1600000 ![] bcast_S_S1600000 : (⟨S_, .i32⟩ : BufTy).Contents (Elt F) → (⟨S1600000, .i32⟩ : BufTy).Contents (Elt F))
  :: StableHlo.binary main_v80 main_v83 main_v84 (addi : (⟨S1600000, .i32⟩ : BufTy).Contents (Elt F) → (⟨S1600000, .i32⟩ : BufTy).Contents (Elt F) → (⟨S1600000, .i32⟩ : BufTy).Contents (Elt F))
  :: StableHlo.ternary main_v82 main_v84 main_v80 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v85 main_v86 (broadcastInDim S1600000x1 ![0] bcast_S1600000_S1600000x1_0 : (⟨S1600000, .i32⟩ : BufTy).Contents (Elt F) → (⟨S1600000x1, .i32⟩ : BufTy).Contents (Elt F))
  :: StableHlo.binary main_arg8 main_v86 main_v87 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F))
  :: StableHlo.binary main_arg3 main_v87 main_v88 (mulf : (⟨S1600000, .f32⟩ : BufTy).Contents (Elt F) → (⟨S1600000, .f32⟩ : BufTy).Contents (Elt F) → (⟨S1600000, .f32⟩ : BufTy).Contents (Elt F))
  :: StableHlo.unary main_arg2 main_v89 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v89 main_v90 rfl shapeCasts_S1x1600000_S1600000
  :: StableHlo.nullary main_c_18 (constantI S_ 32 0#32)
  :: StableHlo.unary main_c_18 main_v91 (broadcastInDim S1600000 ![] bcast_S_S1600000 : (⟨S_, .i32⟩ : BufTy).Contents (Elt F) → (⟨S1600000, .i32⟩ : BufTy).Contents (Elt F))
  :: StableHlo.binary main_v90 main_v91 main_v92 (cmpi .slt : (⟨S1600000, .i32⟩ : BufTy).Contents (Elt F) → (⟨S1600000, .i32⟩ : BufTy).Contents (Elt F) → (⟨S1600000, .i1⟩ : BufTy).Contents (Elt F))
  :: StableHlo.nullary main_c_19 (constantI S_ 32 100000#32)
  :: StableHlo.unary main_c_19 main_v93 (broadcastInDim S1600000 ![] bcast_S_S1600000 : (⟨S_, .i32⟩ : BufTy).Contents (Elt F) → (⟨S1600000, .i32⟩ : BufTy).Contents (Elt F))
  :: StableHlo.binary main_v90 main_v93 main_v94 (addi : (⟨S1600000, .i32⟩ : BufTy).Contents (Elt F) → (⟨S1600000, .i32⟩ : BufTy).Contents (Elt F) → (⟨S1600000, .i32⟩ : BufTy).Contents (Elt F))
  :: StableHlo.ternary main_v92 main_v94 main_v90 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v95 main_v96 (broadcastInDim S1600000x1 ![0] bcast_S1600000_S1600000x1_0 : (⟨S1600000, .i32⟩ : BufTy).Contents (Elt F) → (⟨S1600000x1, .i32⟩ : BufTy).Contents (Elt F))
  :: StableHlo.binary main_v78 main_v96 main_v97 ((fun x i => Host.gather gather_S4x100000x16_S1600000x1_S4x1600000x16_02_1_n_n_1_1_4116 x i) : (⟨S4x100000x16, .f32⟩ : BufTy).Contents (Elt F) → (⟨S1600000x1, .i32⟩ : BufTy).Contents (Elt F) → (⟨S4x1600000x16, .f32⟩ : BufTy).Contents (Elt F))
  :: [] )

set_option maxHeartbeats 40000000 in
/-- The second layer's sparse stretch, the rest (16 operations). -/
abbrev wavelet2_tail : List (HloOp τ sig (Elt F)) :=
  ( StableHlo.unary main_v88 main_v98 (broadcastInDim S1x1600000x1 ![1] bcast_S1600000_S1x1600000x1_1 : (⟨S1600000, .f32⟩ : BufTy).Contents (Elt F) → (⟨S1x1600000x1, .f32⟩ : BufTy).Contents (Elt F))
  :: StableHlo.unary main_v98 main_v99 (broadcastInDim S4x1600000x16 ![0, 1, 2] bcast_S1x1600000x1_S4x1600000x16_0_1_2 : (⟨S1x1600000x1, .f32⟩ : BufTy).Contents (Elt F) → (⟨S4x1600000x16, .f32⟩ : BufTy).Contents (Elt F))
  :: StableHlo.binary main_v97 main_v99 main_v100 (mulf : (⟨S4x1600000x16, .f32⟩ : BufTy).Contents (Elt F) → (⟨S4x1600000x16, .f32⟩ : BufTy).Contents (Elt F) → (⟨S4x1600000x16, .f32⟩ : BufTy).Contents (Elt F))
  :: StableHlo.nullary main_cst_20 (constant S_ .f32 0x00000000#32)
  :: StableHlo.unary main_cst_20 main_v101 (broadcastInDim S4x50000x16 ![] bcast_S_S4x50000x16 : (⟨S_, .f32⟩ : BufTy).Contents (Elt F) → (⟨S4x50000x16, .f32⟩ : BufTy).Contents (Elt F))
  :: StableHlo.unary main_arg2 main_v102 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v102 main_v103 rfl shapeCasts_S1x1600000_S1600000
  :: StableHlo.nullary main_c_21 (constantI S_ 32 0#32)
  :: StableHlo.unary main_c_21 main_v104 (broadcastInDim S1600000 ![] bcast_S_S1600000 : (⟨S_, .i32⟩ : BufTy).Contents (Elt F) → (⟨S1600000, .i32⟩ : BufTy).Contents (Elt F))
  :: StableHlo.binary main_v103 main_v104 main_v105 (cmpi .slt : (⟨S1600000, .i32⟩ : BufTy).Contents (Elt F) → (⟨S1600000, .i32⟩ : BufTy).Contents (Elt F) → (⟨S1600000, .i1⟩ : BufTy).Contents (Elt F))
  :: StableHlo.nullary main_c_22 (constantI S_ 32 50000#32)
  :: StableHlo.unary main_c_22 main_v106 (broadcastInDim S1600000 ![] bcast_S_S1600000 : (⟨S_, .i32⟩ : BufTy).Contents (Elt F) → (⟨S1600000, .i32⟩ : BufTy).Contents (Elt F))
  :: StableHlo.binary main_v103 main_v106 main_v107 (addi : (⟨S1600000, .i32⟩ : BufTy).Contents (Elt F) → (⟨S1600000, .i32⟩ : BufTy).Contents (Elt F) → (⟨S1600000, .i32⟩ : BufTy).Contents (Elt F))
  :: StableHlo.ternary main_v105 main_v107 main_v103 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v108 main_v109 (broadcastInDim S1600000x1 ![0] bcast_S1600000_S1600000x1_0 : (⟨S1600000, .i32⟩ : BufTy).Contents (Elt F) → (⟨S1600000x1, .i32⟩ : BufTy).Contents (Elt F))
  :: StableHlo.ternary main_v101 main_v109 main_v100 main_v110 ((fun x i u => Host.scatterAdd scatter_S4x50000x16_S1600000x1_S4x1600000x16_02_1_1_1 x i u) : (⟨S4x50000x16, .f32⟩ : BufTy).Contents (Elt F) → (⟨S1600000x1, .i32⟩ : BufTy).Contents (Elt F) → (⟨S4x1600000x16, .f32⟩ : BufTy).Contents (Elt F) → (⟨S4x50000x16, .f32⟩ : BufTy).Contents (Elt F))
  :: [] )

set_option maxHeartbeats 40000000 in
/-- The slope constant of the second leaky rectifier (1 operation). -/
abbrev slope2 : List (HloOp τ sig (Elt F)) :=
  ( StableHlo.nullary main_cst_23 (constant S_ .f32 0x3E4CCCCD#32)
  :: [] )

set_option maxHeartbeats 40000000 in
/-- The second leaky rectifier: its function's seven operations over the call's own buffers (7 operations). -/
abbrev leaky2 : List (HloOp τ sig (Elt F)) :=
  ( StableHlo.TRef.nullary main_call1.cst (constant S_ .f32 0x00000000#32)
  :: StableHlo.TRef.unary main_call1.cst main_call1.v0 (broadcastInDim S4x50000x16 ![] bcast_S_S4x50000x16)
  :: StableHlo.TRef.binary (.of main_v110) main_call1.v0 main_call1.v1 (cmpf .oge)
  :: StableHlo.TRef.unary (.of main_cst_23) main_call1.v2 id
  :: StableHlo.TRef.unary main_call1.v2 main_call1.v3 (broadcastInDim S4x50000x16 ![] bcast_S_S4x50000x16)
  :: StableHlo.TRef.binary main_call1.v3 (.of main_v110) main_call1.v4 mulf
  :: StableHlo.TRef.ternary main_call1.v1 (.of main_v110) main_call1.v4 main_call1.call0.v0 select
  :: [] )

set_option maxHeartbeats 40000000 in
/-- The read-out: rows 49998 and 49999, two small products, the biases, the concatenation (15 operations). -/
abbrev readout : List (HloOp τ sig (Elt F)) :=
  ( StableHlo.unary main_v111 main_v112 ((extractStridedSlice S4x1x16 ![0, 49998, 0] · slices_S4x50000x16_S4x1x16_0_49998_0) : (⟨S4x50000x16, .f32⟩ : BufTy).Contents (Elt F) → (⟨S4x1x16, .f32⟩ : BufTy).Contents (Elt F))
  :: StableHlo.reshape main_v112 main_v113 rfl shapeCasts_S4x1x16_S4x16
  :: StableHlo.binary main_v113 main_arg9 main_v114 ((fun l r => Host.dotGeneral dot_S4x16_S16x1_S4x1_1_0_0_1_n_n none l r) : (⟨S4x16, .f32⟩ : BufTy).Contents (Elt F) → (⟨S16x1, .f32⟩ : BufTy).Contents (Elt F) → (⟨S4x1, .f32⟩ : BufTy).Contents (Elt F))
  :: StableHlo.unary main_arg10 main_v115 (broadcastInDim S1x1 ![1] bcast_S1_S1x1_1 : (⟨S1, .f32⟩ : BufTy).Contents (Elt F) → (⟨S1x1, .f32⟩ : BufTy).Contents (Elt F))
  :: StableHlo.unary main_v115 main_v116 (broadcastInDim S4x1 ![0, 1] bcast_S1x1_S4x1_0_1 : (⟨S1x1, .f32⟩ : BufTy).Contents (Elt F) → (⟨S4x1, .f32⟩ : BufTy).Contents (Elt F))
  :: StableHlo.binary main_v114 main_v116 main_v117 (addf : (⟨S4x1, .f32⟩ : BufTy).Contents (Elt F) → (⟨S4x1, .f32⟩ : BufTy).Contents (Elt F) → (⟨S4x1, .f32⟩ : BufTy).Contents (Elt F))
  :: StableHlo.unary main_v111 main_v118 ((extractStridedSlice S4x1x16 ![0, 49999, 0] · slices_S4x50000x16_S4x1x16_0_49999_0) : (⟨S4x50000x16, .f32⟩ : BufTy).Contents (Elt F) → (⟨S4x1x16, .f32⟩ : BufTy).Contents (Elt F))
  :: StableHlo.reshape main_v118 main_v119 rfl shapeCasts_S4x1x16_S4x16
  :: StableHlo.binary main_v119 main_arg11 main_v120 ((fun l r => Host.dotGeneral dot_S4x16_S16x1_S4x1_1_0_0_1_n_n none l r) : (⟨S4x16, .f32⟩ : BufTy).Contents (Elt F) → (⟨S16x1, .f32⟩ : BufTy).Contents (Elt F) → (⟨S4x1, .f32⟩ : BufTy).Contents (Elt F))
  :: StableHlo.unary main_arg12 main_v121 (broadcastInDim S1x1 ![1] bcast_S1_S1x1_1 : (⟨S1, .f32⟩ : BufTy).Contents (Elt F) → (⟨S1x1, .f32⟩ : BufTy).Contents (Elt F))
  :: StableHlo.unary main_v121 main_v122 (broadcastInDim S4x1 ![0, 1] bcast_S1x1_S4x1_0_1 : (⟨S1x1, .f32⟩ : BufTy).Contents (Elt F) → (⟨S4x1, .f32⟩ : BufTy).Contents (Elt F))
  :: StableHlo.binary main_v120 main_v122 main_v123 (addf : (⟨S4x1, .f32⟩ : BufTy).Contents (Elt F) → (⟨S4x1, .f32⟩ : BufTy).Contents (Elt F) → (⟨S4x1, .f32⟩ : BufTy).Contents (Elt F))
  :: StableHlo.unary main_v117 main_v124 (broadcastInDim S4x1x1 ![0, 2] bcast_S4x1_S4x1x1_0_2 : (⟨S4x1, .f32⟩ : BufTy).Contents (Elt F) → (⟨S4x1x1, .f32⟩ : BufTy).Contents (Elt F))
  :: StableHlo.unary main_v123 main_v125 (broadcastInDim S4x1x1 ![0, 2] bcast_S4x1_S4x1x1_0_2 : (⟨S4x1, .f32⟩ : BufTy).Contents (Elt F) → (⟨S4x1x1, .f32⟩ : BufTy).Contents (Elt F))
  :: StableHlo.binary main_v124 main_v125 main_v126 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F))
  :: [] )

end Cert.ReferenceIdeal.Hand

end
-- ==== Proof.RefRun.lean ====
/-
  The reference program's run.

  The reference's @main is a straight line of host operations: a projection, the sparse gather / scatter-add
  stretch, a leaky rectifier (a call of a function that itself calls `_where`), a second projection, the second
  sparse stretch, a second leaky rectifier, and the read-out. Cut into the lists of the operation table, @main is
  their sequence, so every weakly fair execution terminates with each buffer at the fold of those operations over
  the launch memory, one list after the other.
-/
import proofs.«155567_j79869211836445_1_alg».proof.Proof.RefOps
import proofs.«155567_j79869211836445_1_alg».proof.Proof.Gen.ReferenceIdeal
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- The fold of a concatenation is the fold of the second list over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A sequence followed by the bare return is the sequence. -/
theorem seq_then_pure {nD : Nat} {τ : Topo} {sig : RefSig} {Val : EltTy → Type} {Λ : Labels} (l : List (HloOp τ sig Val)) :
    (seq l >>= fun _ => (pure ⟨⟩ : Prog (TpuEff nD τ sig Val Λ .tc) PUnit)) = seq l := by
  have h := seq_append (nD := nD) (Λ := Λ) l []
  rw [List.append_nil] at h
  exact h.symm

/-- @main's first window: the first projection and the head of the first sparse stretch. -/
theorem part0_eq (c : Dev nD) : main_part0 (F := F) c = (Pipeline.chainK
    [ seq layer1_dot ] (seq wavelet1_head) : Prog (TpuEff nD τ sig (Elt F) (Pipeline.Sig Λ₀ (Fin 0) fun p => (pcfgs (F := F) p).Adm) .tc) PUnit) := by
  chain_rfl

/-- @main's second window: the rest of the first sparse stretch, the slope, the leaky rectifier's body, the second
    projection and the head of the second sparse stretch. -/
theorem part1_eq (c : Dev nD) : main_part1 (F := F) c = (Pipeline.chainK
    [ seq wavelet1_tail, seq slope1, seq leaky1, seq layer2_dot ] (seq wavelet2_head) : Prog (TpuEff nD τ sig (Elt F) (Pipeline.Sig Λ₀ (Fin 0) fun p => (pcfgs (F := F) p).Adm) .tc) PUnit) := by
  chain_rfl

/-- @main's last window: the rest of the second sparse stretch, the slope, the second leaky rectifier's body and the
    read-out. -/
theorem part2_eq (c : Dev nD) : main_part2 (F := F) c = (Pipeline.chain
    [ seq wavelet2_tail, seq slope2, seq leaky2, seq readout ] : Prog (TpuEff nD τ sig (Elt F) (Pipeline.Sig Λ₀ (Fin 0) fun p => (pcfgs (F := F) p).Adm) .tc) PUnit) := by
  chain_rfl

/-- All of @main's operations, in order. -/
abbrev ops : List (HloOp τ sig (Elt F)) :=
  layer1_dot ++ (wavelet1_head ++ (wavelet1_tail ++ (slope1 ++ (leaky1 ++ (layer2_dot ++ (wavelet2_head ++
    (wavelet2_tail ++ (slope2 ++ (leaky2 ++ readout)))))))))

/-- @main is the sequence of its operations. -/
theorem main_eq (c : Dev nD) : main (F := F) c = seq ops := by
  show (main_part0 (F := F) c >>= fun _ => main_part1 (F := F) c >>= fun _ => main_part2 (F := F) c) = _
  rw [part0_eq, part1_eq, part2_eq]
  simp only [ops, seq_append, Pipeline.chainK, Pipeline.chain_cons, Pipeline.chain_nil, bind_assoc, seq_then_pure]

/-! ## Every operation stays on the TensorCore's buffers -/

/-- Splits a list's `Forall` into its operations and closes each by the builder's own lemma. -/
local macro "bufs_sub_each" : tactic =>
  `(tactic| (simp only [List.Forall]
             repeat' apply And.intro
             all_goals first
               | exact nullary_bufs_sub .. | exact unary_bufs_sub .. | exact binary_bufs_sub ..
               | exact ternary_bufs_sub .. | exact reshape_bufs_sub ..))

set_option maxHeartbeats 4000000 in
theorem layer1_dot_sub : (layer1_dot : List (HloOp τ sig (Elt F))).Forall fun op => op.bufs ⊆ tcRefs τ sig := by bufs_sub_each
set_option maxHeartbeats 4000000 in
theorem wavelet1_head_sub : (wavelet1_head : List (HloOp τ sig (Elt F))).Forall fun op => op.bufs ⊆ tcRefs τ sig := by bufs_sub_each
set_option maxHeartbeats 4000000 in
theorem wavelet1_tail_sub : (wavelet1_tail : List (HloOp τ sig (Elt F))).Forall fun op => op.bufs ⊆ tcRefs τ sig := by bufs_sub_each
set_option maxHeartbeats 4000000 in
theorem slope1_sub : (slope1 : List (HloOp τ sig (Elt F))).Forall fun op => op.bufs ⊆ tcRefs τ sig := by bufs_sub_each
set_option maxHeartbeats 4000000 in
theorem leaky1_sub : (leaky1 : List (HloOp τ sig (Elt F))).Forall fun op => op.bufs ⊆ tcRefs τ sig := by bufs_sub_each
set_option maxHeartbeats 4000000 in
theorem layer2_dot_sub : (layer2_dot : List (HloOp τ sig (Elt F))).Forall fun op => op.bufs ⊆ tcRefs τ sig := by bufs_sub_each
set_option maxHeartbeats 4000000 in
theorem wavelet2_head_sub : (wavelet2_head : List (HloOp τ sig (Elt F))).Forall fun op => op.bufs ⊆ tcRefs τ sig := by bufs_sub_each
set_option maxHeartbeats 4000000 in
theorem wavelet2_tail_sub : (wavelet2_tail : List (HloOp τ sig (Elt F))).Forall fun op => op.bufs ⊆ tcRefs τ sig := by bufs_sub_each
set_option maxHeartbeats 4000000 in
theorem slope2_sub : (slope2 : List (HloOp τ sig (Elt F))).Forall fun op => op.bufs ⊆ tcRefs τ sig := by bufs_sub_each
set_option maxHeartbeats 4000000 in
theorem leaky2_sub : (leaky2 : List (HloOp τ sig (Elt F))).Forall fun op => op.bufs ⊆ tcRefs τ sig := by bufs_sub_each
set_option maxHeartbeats 4000000 in
theorem readout_sub : (readout : List (HloOp τ sig (Elt F))).Forall fun op => op.bufs ⊆ tcRefs τ sig := by bufs_sub_each

/-- Every operation of @main touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp layer1_dot_sub op h,
      List.forall_iff_forall_mem.mp wavelet1_head_sub op h,
      List.forall_iff_forall_mem.mp wavelet1_tail_sub op h,
      List.forall_iff_forall_mem.mp slope1_sub op h,
      List.forall_iff_forall_mem.mp leaky1_sub op h,
      List.forall_iff_forall_mem.mp layer2_dot_sub op h,
      List.forall_iff_forall_mem.mp wavelet2_head_sub op h,
      List.forall_iff_forall_mem.mp wavelet2_tail_sub op h,
      List.forall_iff_forall_mem.mp slope2_sub op h,
      List.forall_iff_forall_mem.mp leaky2_sub op h,
      List.forall_iff_forall_mem.mp readout_sub op h]

/-- No operation of @main allocates a buffer. -/
theorem ops_fresh : ∀ op ∈ (ops : List (HloOp τ sig (Elt F))), op.fresh = ∅ := by
  intro op h
  simp only [ops, List.mem_append] at h
  rcases h with h | h | h | h | h | h | h | h | h | h | h <;>
    ((repeat (cases h with | head => rfl | tail _ h => ?_)); exact nomatch h)

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of the reference's @main terminates, and in
    the final state every buffer of every core holds the fold of @main's operations over that core's launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.Spec.lean ====
/-
  The two whole-array functions this kernel is made of, stated over plain shapes with no program in sight.

  * `leaky x`: the leaky rectifier with slope the binary32 word `0x3E4CCCCD`, entry by entry: an entry that
    compares `≥ 0` is kept, any other entry is multiplied by the slope (slope on the left, as both programs write it).
  * `proj x w`: the projection of the last axis, `out[b, n, e] = ∑ k < 32, x[b, n, k] · w[k, e]`, a sum of
    thirty-two products of extended reals.

  Both programs compute `proj (leaky (T₂ (proj (leaky (T₁ (proj x W₁))) W₂)))`-shaped values, where `T₁`, `T₂` are
  the sparse gather / scatter-add stretches they share word for word; only `leaky` and `proj` are computed
  differently (inside tiled kernels on one side, by whole-array host operations on the other).
-/
import Idealize.ShloMosaic.PureOps.Ideal
import Idealize.ShloMosaic.Lib.ValueIdx

noncomputable section

open scoped BigOperators

namespace Cert.Spec

open Idealize.ShloMosaic Idealize.ShloMosaic.ValueIdx

/-- The leaky rectifier, entry by entry: `x i` where `x i ≥ 0` holds, `slope · x i` elsewhere. -/
def leaky {s : Shape} (x : FVec Ideal s .f32) : FVec Ideal s .f32 := fun i =>
  Scalar.select (FloatOps.cmpf .oge (x i) (Ideal.ofBits .f32 0x00000000#32)) (x i)
    (Ideal.ofBits .f32 0x3E4CCCCD#32 * x i)

/-- The projection of the last axis of a `4 × 50000 × 32` array by a `32 × E` matrix:
    `out[b, n, e] = ∑ k < 32, x[b, n, k] · w[k, e]`. -/
def proj {E : ℕ} (x : FVec Ideal ⟨3, ![4, 50000, 32]⟩ .f32) (w : FVec Ideal ⟨2, ![32, E]⟩ .f32) :
    FVec Ideal ⟨3, ![4, 50000, E]⟩ .f32 := fun i =>
  ∑ k : Fin 32, x (ix3 (i 0) (i 1) k) * w (ix2 k (i 2))

end Cert.Spec

end
-- ==== Proof.RefLeaky.lean ====
/-
  The reference's leaky rectifier, as its host operations compose it, is the entry-wise leaky rectifier of the
  shared specification.

  The reference writes  select (x ≥ broadcast 0) x (broadcast slope · x)  over a whole array: a scalar zero broadcast
  to the array's shape, an ordered "greater or equal" comparison against it, the scalar slope (passed through a change
  of format that is the identity on extended reals) broadcast likewise, the product slope · x, and the select. Read at
  an index every one of these is its scalar operation on the entries, and a broadcast scalar reads the scalar, so the
  whole expression at index i is  select (x i ≥ 0) (x i) (slope · x i),  which is the specification's definition.
-/
import proofs.«155567_j79869211836445_1_alg».proof.ReferenceIdeal
import proofs.«155567_j79869211836445_1_alg».proof.Proof.Spec
import Idealize.ShloMosaic.Lib.IdealHost

noncomputable section

namespace Cert.ReferenceIdeal.LeakyValue

open Idealize.ShloMosaic Idealize.ShloMosaic.ValueIdx Cert.ReferenceIdeal

/-- Over any shape `T`: the select of `x` against `slope · x` on the condition `x ≥ 0`, with the zero and the slope
    given as rank-0 constants broadcast to `T` (the slope through an identity change of format), is the entry-wise
    leaky rectifier: at each index the broadcasts read their scalars and the comparison, product and select act on
    the entries. The two shape relations are any proofs that a rank-0 array broadcasts to `T`. -/
theorem ref_leaky {T : Shape} (h0 h1 : (⟨0, ![]⟩ : Shape).BroadcastsInDim T ![]) (x : FVec Ideal T .f32) :
    select (cmpf .oge x (broadcastInDim T ![] h0 (constant (F := Ideal) S_ .f32 0x00000000#32))) x
      (mulf (broadcastInDim T ![] h1 (id (constant (F := Ideal) S_ .f32 0x3E4CCCCD#32))) x) = Cert.Spec.leaky x := by
  funext i
  rw [select_apply, cmpf_apply, mulf_apply, broadcastInDim_scalar_apply, broadcastInDim_scalar_apply]
  rfl

section
variable [Facts₀]
open Facts₀

/-- The reference's leaky rectifier on a `4 × 50000 × 32` array: `select (x ≥ 0) x (slope · x)` entry by entry. -/
theorem ref_leaky32 (x : FVec Ideal S4x50000x32 .f32) :
    select (cmpf .oge x (broadcastInDim S4x50000x32 ![] bcast_S_S4x50000x32 (constant (F := Ideal) S_ .f32 0x00000000#32))) x
      (mulf (broadcastInDim S4x50000x32 ![] bcast_S_S4x50000x32 (id (constant (F := Ideal) S_ .f32 0x3E4CCCCD#32))) x)
      = Cert.Spec.leaky x :=
  ref_leaky _ _ x

/-- The reference's leaky rectifier on a `4 × 50000 × 16` array: `select (x ≥ 0) x (slope · x)` entry by entry. -/
theorem ref_leaky16 (x : FVec Ideal S4x50000x16 .f32) :
    select (cmpf .oge x (broadcastInDim S4x50000x16 ![] bcast_S_S4x50000x16 (constant (F := Ideal) S_ .f32 0x00000000#32))) x
      (mulf (broadcastInDim S4x50000x16 ![] bcast_S_S4x50000x16 (id (constant (F := Ideal) S_ .f32 0x3E4CCCCD#32))) x)
      = Cert.Spec.leaky x :=
  ref_leaky _ _ x

end

end Cert.ReferenceIdeal.LeakyValue

end
-- ==== Proof.RefDot.lean ====
/-
  The reference's two projections read at an index.

  The host computes `x · W` by a `dot_general` that contracts the last axis of the `4 × 50000 × 32` operand with the
  first axis of the weight matrix, with no batch axis.  At the result index `(b, n, e)` and the contraction
  coordinate `k` the dimension numbers read the left operand at `(b, n, k)` and the right operand at `(k, e)`;
  at the ideal instance the entry is therefore the plain sum `∑ k < 32, x[b, n, k] · w[k, e]`, which is the
  shared specification `Cert.Spec.proj`.
-/
import proofs.«155567_j79869211836445_1_alg».proof.ReferenceIdeal
import proofs.«155567_j79869211836445_1_alg».proof.Proof.Spec
import Idealize.ShloMosaic.PureOps.Ideal.Laws

noncomputable section

open scoped BigOperators

namespace Cert.RefDot

open Idealize.ShloMosaic Idealize.ShloMosaic.ValueIdx Cert.ReferenceIdeal

variable [Cert.ReferenceIdeal.Facts₀]

/-- The dimension numbers of the first projection (`32` output columns). -/
abbrev D32 : DotDims S4x50000x32 S32x32 S4x50000x32 := dot_S4x50000x32_S32x32_S4x50000x32_2_0_01_1_n_n
/-- The dimension numbers of the second projection (`16` output columns). -/
abbrev D16 : DotDims S4x50000x32 S32x16 S4x50000x16 := dot_S4x50000x32_S32x16_S4x50000x16_2_0_01_1_n_n

/-- First projection: the left operand's index at result index `(b, n, e)` and contraction coordinate `k` is `(b, n, k)`. -/
theorem lhs32 (b : Fin 4) (n : Fin 50000) (e : Fin 32) (k : Fin 32) :
    D32.lhsIdx (ix3 b n e) ((contrEquiv1 D32 32 rfl rfl).symm k) = ix3 b n k := by
  funext a
  match a with
  | ⟨0, _⟩ => rfl
  | ⟨1, _⟩ => rfl
  | ⟨2, _⟩ =>
    exact Fin.ext ((D32.lhsIdx_val_of_single (cl := 2) rfl _ _).trans (contrEquiv1_symm_val D32 32 rfl rfl k))

/-- First projection: the right operand's index at result index `(b, n, e)` and contraction coordinate `k` is `(k, e)`. -/
theorem rhs32 (b : Fin 4) (n : Fin 50000) (e : Fin 32) (k : Fin 32) :
    D32.rhsIdx (ix3 b n e) ((contrEquiv1 D32 32 rfl rfl).symm k) = ix2 k e := by
  funext a
  match a with
  | ⟨0, _⟩ =>
    exact Fin.ext ((D32.rhsIdx_val_of_single (cr := 0) rfl _ _).trans (contrEquiv1_symm_val D32 32 rfl rfl k))
  | ⟨1, _⟩ => rfl

/-- Second projection: the left operand's index at result index `(b, n, e)` and contraction coordinate `k` is `(b, n, k)`. -/
theorem lhs16 (b : Fin 4) (n : Fin 50000) (e : Fin 16) (k : Fin 32) :
    D16.lhsIdx (ix3 b n e) ((contrEquiv1 D16 32 rfl rfl).symm k) = ix3 b n k := by
  funext a
  match a with
  | ⟨0, _⟩ => rfl
  | ⟨1, _⟩ => rfl
  | ⟨2, _⟩ =>
    exact Fin.ext ((D16.lhsIdx_val_of_single (cl := 2) rfl _ _).trans (contrEquiv1_symm_val D16 32 rfl rfl k))

/-- Second projection: the right operand's index at result index `(b, n, e)` and contraction coordinate `k` is `(k, e)`. -/
theorem rhs16 (b : Fin 4) (n : Fin 50000) (e : Fin 16) (k : Fin 32) :
    D16.rhsIdx (ix3 b n e) ((contrEquiv1 D16 32 rfl rfl).symm k) = ix2 k e := by
  funext a
  match a with
  | ⟨0, _⟩ =>
    exact Fin.ext ((D16.rhsIdx_val_of_single (cr := 0) rfl _ _).trans (contrEquiv1_symm_val D16 32 rfl rfl k))
  | ⟨1, _⟩ => rfl

/-- The host's first projection is `Cert.Spec.proj`: entry `(b, n, e)` is `∑ k < 32, x[b, n, k] · w[k, e]`. -/
theorem ref_dot32 (x : FVec Ideal S4x50000x32 .f32) (w : FVec Ideal S32x32 .f32) :
    Host.dotGeneral (F := Ideal) dot_S4x50000x32_S32x32_S4x50000x32_2_0_01_1_n_n none x w = Cert.Spec.proj x w := by
  funext i
  obtain ⟨b, n, e, rfl⟩ : ∃ (b : Fin 4) (n : Fin 50000) (e : Fin 32), i = ix3 b n e := ⟨i 0, i 1, i 2, eq_ix3 i⟩
  refine (Ideal.dotGeneral_apply D32 none .single x w (ix3 b n e)).trans ?_
  rw [← Equiv.sum_comp (contrEquiv1 D32 32 rfl rfl).symm]
  exact Finset.sum_congr rfl fun k _ => by rw [lhs32, rhs32]

/-- The host's second projection is `Cert.Spec.proj`: entry `(b, n, e)` is `∑ k < 32, x[b, n, k] · w[k, e]`. -/
theorem ref_dot16 (x : FVec Ideal S4x50000x32 .f32) (w : FVec Ideal S32x16 .f32) :
    Host.dotGeneral (F := Ideal) dot_S4x50000x32_S32x16_S4x50000x16_2_0_01_1_n_n none x w = Cert.Spec.proj x w := by
  funext i
  obtain ⟨b, n, e, rfl⟩ : ∃ (b : Fin 4) (n : Fin 50000) (e : Fin 16), i = ix3 b n e := ⟨i 0, i 1, i 2, eq_ix3 i⟩
  refine (Ideal.dotGeneral_apply D16 none .single x w (ix3 b n e)).trans ?_
  rw [← Equiv.sum_comp (contrEquiv1 D16 32 rfl rfl).symm]
  exact Finset.sum_congr rfl fun k _ => by rw [lhs16, rhs16]

end Cert.RefDot

end
-- ==== Proof.RefBuffers.lean ====
/-
  What the reference's stretches compute, piece by piece.

  The reference's @main is the sequence of eleven lists of host operations. Two kinds of fact are needed about a
  list. First, none of them writes an argument array (the thirteen arguments are the buffers of index below 13, and
  every operation writes a buffer of index 13 or more), so an argument read after any number of lists is the
  argument as launched. Second, the three places where the reference does by whole-array host operations what the
  kernel does inside tiled regions: the first projection is `proj x W₁`, the leaky rectifier's seven operations
  followed by the second projection are `proj (leaky ·) W₂`, and the second leaky rectifier is `leaky ·`.
-/
import proofs.«155567_j79869211836445_1_alg».proof.Proof.RefRun
import proofs.«155567_j79869211836445_1_alg».proof.Proof.RefLeaky
import proofs.«155567_j79869211836445_1_alg».proof.Proof.RefDot
import proofs.«155567_j79869211836445_1_alg».proof.Proof.Spec

noncomputable section

namespace Cert.ReferenceIdeal.Hand

open Cert.ReferenceIdeal Cert.ReferenceIdeal.Gen Idealize.ShloMosaic Idealize.ShloMosaic.TcCoe Idealize.SL.Sem
open Idealize.ShloMosaic.StableHlo

/-! ## No list writes an argument -/

/-- A list whose operations write only buffers of index 13 or more keeps every buffer of index below 13. -/
theorem keeps_low (l : List (HloOp τ sig (Elt Ideal)))
    (h : l.Forall fun op => ∀ d ∈ op.writes, ∃ r : Ref sig .tc, d = Proc.devRef .tc r ∧ 13 ≤ r.idx.val)
    (b : Ref sig .tc) (hb : b.idx.val < 13) (V : Valuation τ sig (Elt Ideal)) :
    after l V (Proc.devRef .tc b) = V (Proc.devRef .tc b) :=
  after_of_forall_not_mem l V fun op hop hmem => by
    obtain ⟨r, hr, hn⟩ := (List.forall_iff_forall_mem.mp h) op hop _ hmem
    have e : b = r := Proc.devRef_injective _ hr
    subst e
    omega

/-- Opens a list and shows each operation's one written buffer has index 13 or more. -/
local macro "writes_high" l:ident : tactic =>
  `(tactic| (simp only [$l:ident, List.Forall, nullary_writes, unary_writes, binary_writes, ternary_writes, reshape_writes,
               Finset.mem_singleton, forall_eq]
             repeat' apply And.intro
             all_goals exact ⟨_, rfl, by decide⟩))

set_option maxHeartbeats 4000000 in
theorem layer1_dot_high : (layer1_dot : List (HloOp τ sig (Elt Ideal))).Forall fun op => ∀ d ∈ op.writes, ∃ r : Ref sig .tc, d = Proc.devRef .tc r ∧ 13 ≤ r.idx.val := by
  writes_high layer1_dot
set_option maxHeartbeats 4000000 in
theorem wavelet1_head_high : (wavelet1_head : List (HloOp τ sig (Elt Ideal))).Forall fun op => ∀ d ∈ op.writes, ∃ r : Ref sig .tc, d = Proc.devRef .tc r ∧ 13 ≤ r.idx.val := by
  writes_high wavelet1_head
set_option maxHeartbeats 4000000 in
theorem wavelet1_tail_high : (wavelet1_tail : List (HloOp τ sig (Elt Ideal))).Forall fun op => ∀ d ∈ op.writes, ∃ r : Ref sig .tc, d = Proc.devRef .tc r ∧ 13 ≤ r.idx.val := by
  writes_high wavelet1_tail
set_option maxHeartbeats 4000000 in
theorem slope1_high : (slope1 : List (HloOp τ sig (Elt Ideal))).Forall fun op => ∀ d ∈ op.writes, ∃ r : Ref sig .tc, d = Proc.devRef .tc r ∧ 13 ≤ r.idx.val := by
  writes_high slope1
set_option maxHeartbeats 4000000 in
theorem leaky1_high : (leaky1 : List (HloOp τ sig (Elt Ideal))).Forall fun op => ∀ d ∈ op.writes, ∃ r : Ref sig .tc, d = Proc.devRef .tc r ∧ 13 ≤ r.idx.val := by
  writes_high leaky1
set_option maxHeartbeats 4000000 in
theorem layer2_dot_high : (layer2_dot : List (HloOp τ sig (Elt Ideal))).Forall fun op => ∀ d ∈ op.writes, ∃ r : Ref sig .tc, d = Proc.devRef .tc r ∧ 13 ≤ r.idx.val := by
  writes_high layer2_dot
set_option maxHeartbeats 4000000 in
theorem wavelet2_head_high : (wavelet2_head : List (HloOp τ sig (Elt Ideal))).Forall fun op => ∀ d ∈ op.writes, ∃ r : Ref sig .tc, d = Proc.devRef .tc r ∧ 13 ≤ r.idx.val := by
  writes_high wavelet2_head
set_option maxHeartbeats 4000000 in
theorem wavelet2_tail_high : (wavelet2_tail : List (HloOp τ sig (Elt Ideal))).Forall fun op => ∀ d ∈ op.writes, ∃ r : Ref sig .tc, d = Proc.devRef .tc r ∧ 13 ≤ r.idx.val := by
  writes_high wavelet2_tail
set_option maxHeartbeats 4000000 in
theorem slope2_high : (slope2 : List (HloOp τ sig (Elt Ideal))).Forall fun op => ∀ d ∈ op.writes, ∃ r : Ref sig .tc, d = Proc.devRef .tc r ∧ 13 ≤ r.idx.val := by
  writes_high slope2
set_option maxHeartbeats 4000000 in
theorem leaky2_high : (leaky2 : List (HloOp τ sig (Elt Ideal))).Forall fun op => ∀ d ∈ op.writes, ∃ r : Ref sig .tc, d = Proc.devRef .tc r ∧ 13 ≤ r.idx.val := by
  writes_high leaky2
set_option maxHeartbeats 4000000 in
theorem readout_high : (readout : List (HloOp τ sig (Elt Ideal))).Forall fun op => ∀ d ∈ op.writes, ∃ r : Ref sig .tc, d = Proc.devRef .tc r ∧ 13 ≤ r.idx.val := by
  writes_high readout

/-! ## The buffers after each stage

`M₀` is a core's launch contents. `M1` … `M5` are the contents after the first projection, the first sparse stretch, the
first leaky rectifier and second projection, the second sparse stretch, and the second leaky rectifier; the read-out over
`M5` ends @main. -/

variable (M₀ : Valuation τ sig (Elt Ideal))

/-- After the first projection. -/
def M1 : Valuation τ sig (Elt Ideal) := after layer1_dot M₀
/-- After the first sparse stretch. -/
def M2 : Valuation τ sig (Elt Ideal) := after wavelet1_tail (after wavelet1_head (M1 M₀))
/-- After the first leaky rectifier and the second projection. -/
def M3 : Valuation τ sig (Elt Ideal) := after layer2_dot (after leaky1 (after slope1 (M2 M₀)))
/-- After the second sparse stretch. -/
def M4 : Valuation τ sig (Elt Ideal) := after wavelet2_tail (after wavelet2_head (M3 M₀))
/-- After the second leaky rectifier. -/
def M5 : Valuation τ sig (Elt Ideal) := after leaky2 (after slope2 (M4 M₀))

/-- @main's fold is the read-out over `M5`. -/
theorem ops_fold : after ops M₀ = after readout (M5 M₀) := by
  simp only [ops, after_append]
  rfl

variable (b : Ref sig .tc) (hb : b.idx.val < 13)
include hb

/-- Every stage keeps the argument arrays. -/
theorem M1_arg : M1 M₀ (Proc.devRef .tc b) = M₀ (Proc.devRef .tc b) := keeps_low _ layer1_dot_high b hb _
theorem M2_arg : M2 M₀ (Proc.devRef .tc b) = M₀ (Proc.devRef .tc b) := by
  unfold M2; rw [keeps_low _ wavelet1_tail_high b hb, keeps_low _ wavelet1_head_high b hb, M1_arg M₀ b hb]
theorem M3_arg : M3 M₀ (Proc.devRef .tc b) = M₀ (Proc.devRef .tc b) := by
  unfold M3; rw [keeps_low _ layer2_dot_high b hb, keeps_low _ leaky1_high b hb, keeps_low _ slope1_high b hb, M2_arg M₀ b hb]
theorem M4_arg : M4 M₀ (Proc.devRef .tc b) = M₀ (Proc.devRef .tc b) := by
  unfold M4; rw [keeps_low _ wavelet2_tail_high b hb, keeps_low _ wavelet2_head_high b hb, M3_arg M₀ b hb]
theorem M5_arg : M5 M₀ (Proc.devRef .tc b) = M₀ (Proc.devRef .tc b) := by
  unfold M5; rw [keeps_low _ leaky2_high b hb, keeps_low _ slope2_high b hb, M4_arg M₀ b hb]

/-- All of @main keeps the argument arrays. -/
theorem ops_arg : after ops M₀ (Proc.devRef .tc b) = M₀ (Proc.devRef .tc b) := by
  rw [ops_fold, keeps_low _ readout_high b hb, M5_arg M₀ b hb]

omit hb

/-! ## The three values -/

/-- The first projection's result is `proj x W₁` of the launched arrays. -/
theorem M1_out : (M1 M₀ (Proc.devRef .tc main_v0) : S4x50000x32.Idx → EReal)
    = Cert.Spec.proj (M₀ (Proc.devRef .tc main_arg4)) (M₀ (Proc.devRef .tc main_arg5)) := by
  unfold M1
  dsimp only [layer1_dot]
  after_results
  exact Cert.RefDot.ref_dot32 _ _

/-- The leaky rectifier's seven operations over a buffer `x` leave `leaky x`: the fold through them at the result
    buffer is the composed term by computation, and that term is `leaky` entry by entry. -/
theorem leaky1_value (M : Valuation τ sig (Elt Ideal)) :
    (after leaky1 (after slope1 M) (Proc.devRef .tc main_v55) : S4x50000x32.Idx → EReal)
      = Cert.Spec.leaky (M (Proc.devRef .tc main_v54)) := by
  refine Eq.trans ?_ (Cert.ReferenceIdeal.LeakyValue.ref_leaky32 (M (Proc.devRef .tc main_v54)))
  simp only [leaky1, slope1, after_cons, after_nil]
  rfl

theorem leaky2_value (M : Valuation τ sig (Elt Ideal)) :
    (after leaky2 (after slope2 M) (Proc.devRef .tc main_v111) : S4x50000x16.Idx → EReal)
      = Cert.Spec.leaky (M (Proc.devRef .tc main_v110)) := by
  refine Eq.trans ?_ (Cert.ReferenceIdeal.LeakyValue.ref_leaky16 (M (Proc.devRef .tc main_v110)))
  simp only [leaky2, slope2, after_cons, after_nil]
  rfl

/-- The second projection's result is `proj (leaky out₁) W₂`. -/
theorem M3_out : (M3 M₀ (Proc.devRef .tc main_v56) : S4x50000x16.Idx → EReal)
    = Cert.Spec.proj (Cert.Spec.leaky (M2 M₀ (Proc.devRef .tc main_v54))) (M₀ (Proc.devRef .tc main_arg7)) := by
  have hw : after leaky1 (after slope1 (M2 M₀)) (Proc.devRef .tc main_arg7) = M₀ (Proc.devRef .tc main_arg7) := by
    rw [keeps_low _ leaky1_high main_arg7 (by decide), keeps_low _ slope1_high main_arg7 (by decide), M2_arg M₀ main_arg7 (by decide)]
  have hx := leaky1_value (M2 M₀)
  unfold M3
  generalize after leaky1 (after slope1 (M2 M₀)) = X at hx hw ⊢
  dsimp only [layer2_dot]
  after_results
  rw [hx, hw]
  exact Cert.RefDot.ref_dot16 _ _

/-- The second leaky rectifier's result is `leaky out₂`. -/
theorem M5_out : (M5 M₀ (Proc.devRef .tc main_v111) : S4x50000x16.Idx → EReal)
    = Cert.Spec.leaky (M4 M₀ (Proc.devRef .tc main_v110)) := by
  unfold M5
  exact leaky2_value (M4 M₀)

end Cert.ReferenceIdeal.Hand

end
-- ==== Proof.LibContract.lean ====
/-
  A matrix product read at one result index.

  At the ideal instance a `tpu.matmul` into a zero accumulator is, at a result index `j`, the sum over the
  contraction index of the left operand times the right operand, each read where the dimension numbers send
  `(j, k)`.  When the contraction runs over a single axis of extent `n` the contraction index is one number
  `k < n`, and the sum becomes a plain sum over `Fin n`.  The lemma below states this once for any dimension
  numbers, the two families of operand indices being supplied by the caller.
-/
import Idealize.ShloMosaic.Lib.ValueIdx
import Idealize.ShloMosaic.PureOps.Ideal.Laws

noncomputable section

namespace Cert.LibContract

open Idealize.ShloMosaic

/-- A product into the zero accumulator, contracted over one axis of extent `n`, at the result index `j`:
    if the dimension numbers send `(j, k)` to the operand indices `li k` and `ri k`, the entry is
    `∑ k < n, lhs (li k) * rhs (ri k)`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k, d.lhsIdx j ((ValueIdx.contrEquiv1 d n hr hs).symm k) = li k)
    (hrr : ∀ k, d.rhsIdx j ((ValueIdx.contrEquiv1 d n hr hs).symm k) = ri k) :
    matmul d prec lhs rhs (constant so .f32 0x00000000#32) j = ∑ k : Fin n, lhs (li k) * rhs (ri k) := by
  show FloatOps.matmul d prec lhs rhs (constant so .f32 0x00000000#32) j = _
  rw [Ideal.matmul_constant_zero_apply, ← Equiv.sum_comp (ValueIdx.contrEquiv1 d n hr hs).symm]
  exact Finset.sum_congr rfl fun k _ => by rw [hl k, hrr k]

end Cert.LibContract

end
-- ==== Proof.ProjPayload.lean ====
/-
  The two projection kernels' bodies read at an index.

  Each body flattens its `4 × 5000 × 32` block to `20000 × 32` rows (row `b · 5000 + r`), multiplies the rows by
  the whole weight matrix into a zero accumulator, and folds the `20000` rows of the product back to
  `4 × 5000`.  At the ideal instance the change of float format is the identity, so the entry `(b, r, e)` of
  what the body stores is `∑ k < 32, x[b, r, k] · w[k, e]`; the second kernel applies the leaky rectifier to the
  block first, entry by entry.
-/
import proofs.«155567_j79869211836445_1_alg».proof.Proof.Gen.KernelIdeal.Skeleton
import proofs.«155567_j79869211836445_1_alg».proof.Proof.Spec
import proofs.«155567_j79869211836445_1_alg».proof.Proof.LibContract
import Idealize.ShloMosaic.Lib.Pipeline.Value

noncomputable section

open scoped BigOperators

namespace Cert.KernelIdeal.Proj

open Idealize.ShloMosaic Idealize.ShloMosaic.ValueIdx Cert.KernelIdeal Cert.KernelIdeal.Gen

/-- The dimension numbers of the first kernel's product (`20000 × 32` by `32 × 32`). -/
abbrev M32 : DotDims S20000x32 S32x32 S20000x32 := dot_S20000x32_S32x32_S20000x32_1_0_0_1_n_n
/-- The dimension numbers of the second kernel's product (`20000 × 32` by `32 × 16`). -/
abbrev M16 : DotDims S20000x32 S32x16 S20000x16 := dot_S20000x32_S32x16_S20000x16_1_0_0_1_n_n

/-- The flattened row of the block entry `(b, r)`: `b · 5000 + r`. -/
abbrev row (b : Fin 4) (r : Fin 5000) : Fin 20000 := ⟨b.val * 5000 + r.val, by omega⟩

/-- First product: the left operand's index at result index `(q, e)` and contraction coordinate `k` is `(q, k)`. -/
theorem lhs32 (q : Fin 20000) (e : Fin 32) (k : Fin 32) :
    M32.lhsIdx (ix2 q e) ((contrEquiv1 M32 32 rfl rfl).symm k) = ix2 q k := by
  funext a
  match a with
  | ⟨0, _⟩ => rfl
  | ⟨1, _⟩ =>
    exact Fin.ext ((M32.lhsIdx_val_of_single (cl := 1) rfl _ _).trans (contrEquiv1_symm_val M32 32 rfl rfl k))

/-- First product: the right operand's index at result index `(q, e)` and contraction coordinate `k` is `(k, e)`. -/
theorem rhs32 (q : Fin 20000) (e : Fin 32) (k : Fin 32) :
    M32.rhsIdx (ix2 q e) ((contrEquiv1 M32 32 rfl rfl).symm k) = ix2 k e := by
  funext a
  match a with
  | ⟨0, _⟩ =>
    exact Fin.ext ((M32.rhsIdx_val_of_single (cr := 0) rfl _ _).trans (contrEquiv1_symm_val M32 32 rfl rfl k))
  | ⟨1, _⟩ => rfl

/-- The flattened block at `(b · 5000 + r, k)` is the block at `(b, r, k)`. -/
theorem flat_apply {α : Type} (x : S4x5000x32.Idx → α) (b : Fin 4) (r : Fin 5000) (k : Fin 32) :
    shapeCast S20000x32 x shapeCasts_S4x5000x32_S20000x32 (ix2 (row b r) k) = x (ix3 b r k) :=
  shapeCast_apply x _ (ix2 (row b r) k) (ix3 b r k) (by
    rw [Shape.rowMajor_val_three, Shape.rowMajor_val_two]
    show (b.val * 5000 + r.val) * 32 + k.val = (b.val * 5000 + r.val) * 32 + k.val
    rfl)

/-- The first kernel's stored block at `(b, r, e)`: `∑ k < 32, x[b, r, k] · w[k, e]`. -/
theorem pay0_apply (x0 : Vec Ideal S4x5000x32 .f32) (x1 : Vec Ideal S32x32 .f32) (b : Fin 4) (r : Fin 5000) (e : Fin 32) :
    k0_pay1 (F := Ideal) x0 x1 (ix3 b r e) = ∑ k : Fin 32, x0 (ix3 b r k) * x1 (ix2 k e) := by
  unfold k0_pay1
  refine (shapeCast_apply _ _ (ix3 b r e) (ix2 (row b r) e) (by
    rw [Shape.rowMajor_val_three, Shape.rowMajor_val_two]
    show (b.val * 5000 + r.val) * 32 + e.val = (b.val * 5000 + r.val) * 32 + e.val
    rfl)).trans ?_
  refine (Cert.LibContract.matmul_zero_single M32 none 32 rfl rfl _ _ (ix2 (row b r) e)
    (fun k => ix2 (row b r) k) (fun k => ix2 k e) (fun k => lhs32 _ _ k) (fun k => rhs32 _ _ k)).trans ?_
  exact Finset.sum_congr rfl fun k _ => congrArg (· * x1 (ix2 k e)) (flat_apply _ b r k)

/-- Second product: the left operand's index at result index `(q, e)` and contraction coordinate `k` is `(q, k)`. -/
theorem lhs16 (q : Fin 20000) (e : Fin 16) (k : Fin 32) :
    M16.lhsIdx (ix2 q e) ((contrEquiv1 M16 32 rfl rfl).symm k) = ix2 q k := by
  funext a
  match a with
  | ⟨0, _⟩ => rfl
  | ⟨1, _⟩ =>
    exact Fin.ext ((M16.lhsIdx_val_of_single (cl := 1) rfl _ _).trans (contrEquiv1_symm_val M16 32 rfl rfl k))

/-- Second product: the right operand's index at result index `(q, e)` and contraction coordinate `k` is `(k, e)`. -/
theorem rhs16 (q : Fin 20000) (e : Fin 16) (k : Fin 32) :
    M16.rhsIdx (ix2 q e) ((contrEquiv1 M16 32 rfl rfl).symm k) = ix2 k e := by
  funext a
  match a with
  | ⟨0, _⟩ =>
    exact Fin.ext ((M16.rhsIdx_val_of_single (cr := 0) rfl _ _).trans (contrEquiv1_symm_val M16 32 rfl rfl k))
  | ⟨1, _⟩ => rfl

/-- The second kernel's rectified block, entry by entry, is the leaky rectifier of the block: the comparison with
    zero keeps the entry or multiplies it by the slope (the reshape to the same shape changes nothing). -/
theorem rectified_apply (x0 : Vec Ideal S4x5000x32 .f32) (i : S4x5000x32.Idx) :
    (select (cmpf .oge (shapeCast S4x5000x32 x0 shapeCasts_S4x5000x32_S4x5000x32)
        (broadcast S4x5000x32 (Scalar.ofBits (F := Ideal) .f32 0x00000000#32)))
      (shapeCast S4x5000x32 x0 shapeCasts_S4x5000x32_S4x5000x32)
      (mulf (broadcast S4x5000x32 (Scalar.ofBits (F := Ideal) .f32 0x3E4CCCCD#32))
        (shapeCast S4x5000x32 x0 shapeCasts_S4x5000x32_S4x5000x32)) : FVec Ideal S4x5000x32 .f32) i
      = Cert.Spec.leaky x0 i := by
  rw [shapeCast_self]
  rfl

/-- The second kernel's stored block at `(b, r, e)`: `∑ k < 32, leaky(x)[b, r, k] · w[k, e]`. -/
theorem pay1_apply (x0 : Vec Ideal S4x5000x32 .f32) (x1 : Vec Ideal S32x16 .f32) (b : Fin 4) (r : Fin 5000) (e : Fin 16) :
    k1_pay1 (F := Ideal) x0 x1 (ix3 b r e) = ∑ k : Fin 32, Cert.Spec.leaky x0 (ix3 b r k) * x1 (ix2 k e) := by
  unfold k1_pay1
  refine (shapeCast_apply _ _ (ix3 b r e) (ix2 (row b r) e) (by
    rw [Shape.rowMajor_val_three, Shape.rowMajor_val_two]
    show (b.val * 5000 + r.val) * 16 + e.val = (b.val * 5000 + r.val) * 16 + e.val
    rfl)).trans ?_
  refine (Cert.LibContract.matmul_zero_single M16 none 32 rfl rfl _ _ (ix2 (row b r) e)
    (fun k => ix2 (row b r) k) (fun k => ix2 k e) (fun k => lhs16 _ _ k) (fun k => rhs16 _ _ k)).trans ?_
  exact Finset.sum_congr rfl fun k _ => congrArg (· * x1 (ix2 k e))
    ((flat_apply _ b r k).trans (rectified_apply x0 (ix3 b r k)))

end Cert.KernelIdeal.Proj

end
-- ==== Proof.Region0Value.lean ====
/-
  The first projection region: the array the first tiled region leaves is the projection of the array it finds by
  the weight matrix it finds.

  The region runs over ten grid points. At point t it reads rows 5000·t … 5000·t + 4999 of the 4 × 50000 × 32 input
  (all of the first and last axes) and the whole 32 × 32 weight matrix, and writes to the same rows of the output the
  block whose entry (b, r, e) is  ∑ k < 32, x[b, r, k] · w[k, e].  Three steps:

  * the input block at (b, r, k) is the input array at (b, 5000·t + r, k), the weight block is the weight matrix,
    and the output block's entry (b, r, e) sits in the output array at (b, 5000·t + r, e) (`in_block`,
    `weight_block`, `out_place`);
  * what point t writes back is therefore block t of  proj A W  (`written_back`);
  * every row n lies in the block of point n / 5000, so the ten blocks cover the output array (`rows_covered`) and
    the array ends holding  proj A W  everywhere (`region0`).
-/
import proofs.«155567_j79869211836445_1_alg».proof.Proof.Gen.KernelIdeal.Frame
import proofs.«155567_j79869211836445_1_alg».proof.Proof.Spec
import proofs.«155567_j79869211836445_1_alg».proof.Proof.ProjPayload
import Idealize.ShloMosaic.Lib.Pipeline.Value
import Idealize.ShloMosaic.Lib.ValueIdx

noncomputable section

open scoped BigOperators

namespace Cert.KernelIdeal.Region0Value

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The offsets `(0, 0, 0)` of a whole-block access are the zero function. -/
theorem offsets_zero3 : (![0, 0, 0] : Fin 3 → Nat) = fun _ => 0 := funext fun a => by fin_cases a <;> rfl
/-- The offsets `(0, 0)` of a whole-matrix access are the zero function. -/
theorem offsets_zero2 : (![0, 0] : Fin 2 → Nat) = fun _ => 0 := funext fun a => by fin_cases a <;> rfl

/-- The grid has ten points. -/
theorem point_lt (t : Fin cfg0.N) : t.val < 10 := by
  have h : t.val < grid0.N := t.isLt
  rw [N_0] at h
  exact h

/-- The row of the arrays that row `r` of point `t`'s blocks is: `5000 · t + r`. -/
def rowAt (t : Fin cfg0.N) (r : Fin 5000) : Fin 50000 := ⟨5000 * t.val + r.val, by have := point_lt t; omega⟩

/-- The block indices of the three windows at point `t`: input and output blocks advance along the row axis only,
    the weight window stays at its one block (decided over the ten points). -/
theorem block_index : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 3) = 0 ∧ win0_2.index t (1 : Fin 3) = t.val ∧ win0_2.index t (2 : Fin 3) = 0) :=
  (by decide +kernel : ∀ t : Fin grid0.N, _)

/-- The input block of point `t` at `(b, r, k)` is the input array at `(b, 5000·t + r, k)`. -/
theorem in_block (t : Fin cfg0.N) (b : Fin 4) (r : Fin 5000) (k : Fin 32) :
    (iblk0 V c 0 t : Vec Ideal S4x5000x32 .f32) (ix3 b r k)
      = (V c main_arg4 : S4x50000x32.Idx → EReal) (ix3 b (rowAt t r) k) := by
  obtain ⟨⟨e0, e1, e2⟩, -, -⟩ := block_index t
  unfold iblk0
  rw [View.read_apply]
  show V c main_arg4 _ = V c main_arg4 _
  refine congrArg _ (funext fun a => Fin.ext ?_)
  match a with
  | ⟨0, _⟩ => show win0_0.index t (0 : Fin 3) * 4 + 1 * b.val = b.val; rw [e0]; omega
  | ⟨1, _⟩ => show win0_0.index t (1 : Fin 3) * 5000 + 1 * r.val = 5000 * t.val + r.val; rw [e1]; omega
  | ⟨2, _⟩ => show win0_0.index t (2 : Fin 3) * 32 + 1 * k.val = k.val; rw [e2]; omega

/-- The weight block of every point at `(k, e)` is the weight matrix at `(k, e)`: the window's block is the whole
    matrix. -/
theorem weight_block (t : Fin cfg0.N) (k : Fin 32) (e : Fin 32) :
    (iblk0 V c 1 t : Vec Ideal S32x32 .f32) (ix2 k e) = (V c main_arg5 : S32x32.Idx → EReal) (ix2 k e) := by
  obtain ⟨-, ⟨e0, e1⟩, -⟩ := block_index t
  unfold iblk0
  rw [View.read_apply]
  show V c main_arg5 _ = V c main_arg5 _
  refine congrArg _ (funext fun a => Fin.ext ?_)
  match a with
  | ⟨0, _⟩ => show win0_1.index t (0 : Fin 2) * 32 + 1 * k.val = k.val; rw [e0]; omega
  | ⟨1, _⟩ => show win0_1.index t (1 : Fin 2) * 32 + 1 * e.val = e.val; rw [e1]; omega

/-- The entry `(b, r, e)` of point `t`'s output block sits in the output array at `(b, 5000·t + r, e)`. -/
theorem out_place (t : Fin cfg0.N) (b : Fin 4) (r : Fin 5000) (e : Fin 32) :
    (((cfg0.win 2).blk t).view.emb (ix3 b r e) : S4x50000x32.Idx) = ix3 b (rowAt t r) e := by
  obtain ⟨-, -, ⟨e0, e1, e2⟩⟩ := block_index t
  refine funext fun a => Fin.ext ?_
  match a with
  | ⟨0, _⟩ => show win0_2.index t (0 : Fin 3) * 4 + 1 * b.val = b.val; rw [e0]; omega
  | ⟨1, _⟩ => show win0_2.index t (1 : Fin 3) * 5000 + 1 * r.val = 5000 * t.val + r.val; rw [e1]; omega
  | ⟨2, _⟩ => show win0_2.index t (2 : Fin 3) * 32 + 1 * e.val = e.val; rw [e2]; omega

/-- What point `t` writes back to the output array is block `t` of the projection of the input array by the weight
    matrix, both as the region finds them: one whole-block store leaves its payload, whose entry `(b, r, e)` is
    `∑ k < 32, x[b, r, k] · w[k, e]` of the loaded blocks; the loaded input block is rows `5000·t + r` of the input
    array, the loaded weight block is the weight matrix, and the entry lands at row `5000·t + r` of the output. -/
theorem written_back (t : Fin cfg0.N) :
    (dat0 (F := Ideal) V c).flushed 2 t
      = ((cfg0.win 2).blk t).view.read (Elt Ideal)
          (Cert.Spec.proj (V c main_arg4 : S4x50000x32.Idx → EReal) (V c main_arg5 : S32x32.Idx → EReal)) := by
  show (cfg0.win 2).cut (grid0.coords t) ((dat0 V c).after 2 t) = _
  rw [after0_2]
  unfold out0_2
  rw [View.canon_unit_zero offsets_zero3]
  simp only [View.ld_unit_zero (S := S4x5000x32) offsets_zero3, View.ld_unit_zero (S := S32x32) offsets_zero2]
  funext j
  obtain ⟨b, r, e, rfl⟩ : ∃ (b : Fin 4) (r : Fin 5000) (e : Fin 32), j = ix3 b r e := ⟨j 0, j 1, j 2, eq_ix3 j⟩
  show k0_pay1 (F := Ideal) (iblk0 V c 0 t) (iblk0 V c 1 t) (ix3 b r e)
    = Cert.Spec.proj (V c main_arg4 : S4x50000x32.Idx → EReal) (V c main_arg5 : S32x32.Idx → EReal)
        (((cfg0.win 2).blk t).view.emb (ix3 b r e))
  refine (Cert.KernelIdeal.Proj.pay0_apply (iblk0 V c 0 t) (iblk0 V c 1 t) b r e).trans ?_
  refine Eq.trans ?_ (congrArg (Cert.Spec.proj (V c main_arg4 : S4x50000x32.Idx → EReal)
    (V c main_arg5 : S32x32.Idx → EReal)) (out_place t b r e)).symm
  exact Finset.sum_congr rfl fun k _ => congrArg₂ (· * ·) (in_block V c t b r k) (weight_block V c t k e)

/-- An index of the output array lies in point `t`'s block iff on every axis its coordinate lies in the block's range
    `[index · size, index · size + size)`. -/
theorem mem_block (t : Fin cfg0.N) (i : S4x50000x32.Idx) :
    i ∈ ((cfg0.win 2).blk t).view.set ↔ ∀ a : Fin 3, win0_2.index t a * S4x5000x32.size a ≤ (i a).val
      ∧ (i a).val < win0_2.index t a * S4x5000x32.size a + S4x5000x32.size a := by
  show i ∈ ((View.whole main_v0).slice (win0_2.rect t)).set ↔ _
  rw [View.set_slice_whole, Rect.mem_set_unit]
  exact Iff.rfl

/-- Every index `(b, n, e)` of the output array lies in the block of a point that writes back: the point `n / 5000`,
    whose block is all of the first and last axes and rows `5000 · (n / 5000) … 5000 · (n / 5000) + 4999`. -/
theorem rows_covered (i : S4x50000x32.Idx) :
    ∃ t : Fin cfg0.N, (cfg0.win 2).flush t = true ∧ i ∈ ((cfg0.win 2).blk t).view.set := by
  have h0 : (i 0).val < 4 := (i 0).isLt
  have h1 : (i 1).val < 50000 := (i 1).isLt
  have h2 : (i 2).val < 32 := (i 2).isLt
  have hN : grid0.N = 10 := N_0
  have ht : (i 1).val / 5000 < cfg0.N := by show _ < grid0.N; rw [hN]; omega
  obtain ⟨-, -, ⟨e0, e1, e2⟩⟩ := block_index ⟨(i 1).val / 5000, ht⟩
  refine ⟨⟨(i 1).val / 5000, ht⟩, flush0_2 _, ?_⟩
  rw [mem_block]
  intro a
  match a with
  | ⟨0, _⟩ =>
    show win0_2.index ⟨(i 1).val / 5000, ht⟩ (0 : Fin 3) * 4 ≤ (i 0).val
      ∧ (i 0).val < win0_2.index ⟨(i 1).val / 5000, ht⟩ (0 : Fin 3) * 4 + 4
    rw [e0]; omega
  | ⟨1, _⟩ =>
    show win0_2.index ⟨(i 1).val / 5000, ht⟩ (1 : Fin 3) * 5000 ≤ (i 1).val
      ∧ (i 1).val < win0_2.index ⟨(i 1).val / 5000, ht⟩ (1 : Fin 3) * 5000 + 5000
    rw [e1]
    show (i 1).val / 5000 * 5000 ≤ (i 1).val ∧ (i 1).val < (i 1).val / 5000 * 5000 + 5000
    omega
  | ⟨2, _⟩ =>
    show win0_2.index ⟨(i 1).val / 5000, ht⟩ (2 : Fin 3) * 32 ≤ (i 2).val
      ∧ (i 2).val < win0_2.index ⟨(i 1).val / 5000, ht⟩ (2 : Fin 3) * 32 + 32
    rw [e2]; omega

/-- The region's arrays: window 0 stages the input array, window 1 the weight matrix, window 2 the output array. -/
theorem arrays : Pipeline.arrRef spec0 0 = main_arg4 ∧ Pipeline.arrRef spec0 1 = main_arg5
    ∧ Pipeline.arrRef spec0 2 = main_v0 := ⟨rfl, rfl, rfl⟩

/-- THE REGION'S VALUE: after its ten points the output array holds the projection of the input array by the weight
    matrix, both as the region finds them: every point writes back its block of that one array, and the blocks cover
    the output. -/
theorem region0 :
    (dat0 (F := Ideal) V c).arrAt 2 cfg0.N
      = Cert.Spec.proj (V c main_arg4 : S4x50000x32.Idx → EReal) (V c main_arg5 : S32x32.Idx → EReal) :=
  (dat0 V c).arrAt_eq_of_cover 2 _ (fun t _ => written_back V c t) rows_covered

end Cert.KernelIdeal.Region0Value

end
-- ==== Proof.Region1Value.lean ====
/-
  The second projection region: the array it leaves is the projection, by the 32 × 16 weight matrix, of the leaky
  rectifier of the array it finds.

  The region runs over ten grid points. At point t it reads rows 5000·t … 5000·t + 4999 of a 4 × 50000 × 32 array
  (all of the first and last axes) and the whole 32 × 16 weight matrix, applies the leaky rectifier to the block,
  flattens the block to 20000 rows, multiplies by the weights, folds the rows back, and writes the 4 × 5000 × 16
  result to the same rows of the output array. With the stored block read at an index (the imported payload lemma:
  entry (b, r, e) is  ∑ k < 32, leaky(x)[b, r, k] · w[k, e]),  three steps remain:

  * at a block index (b, r, e) the input block's entry (b, r, k) is the input array's entry on the row where the
    output's block puts (b, r, e), column k, and the weight block's entry (k, e) is the weight array's, so the stored
    entry is the projection of the rectified input array at the array index of (b, r, e)  (`block_entry`);
  * so what point t writes back is block t of that one whole array (`written_back`);
  * every row n lies in the block of point n / 5000, so the ten blocks cover the output array (`rows_covered`) and
    the array ends holding the projection everywhere (`region1`).
-/
import proofs.«155567_j79869211836445_1_alg».proof.Proof.Gen.KernelIdeal.Frame
import proofs.«155567_j79869211836445_1_alg».proof.Proof.Spec
import proofs.«155567_j79869211836445_1_alg».proof.Proof.ProjPayload
import Idealize.ShloMosaic.Lib.Pipeline.Value
import Idealize.ShloMosaic.Lib.ValueIdx

noncomputable section

open scoped BigOperators

namespace Cert.KernelIdeal.Region1Value

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The offsets `(0, 0, 0)` of a whole-block access are the zero function. -/
theorem offsets3_zero : (![0, 0, 0] : Fin 3 → Nat) = fun _ => 0 := funext fun a => by fin_cases a <;> rfl
/-- The offsets `(0, 0)` of a whole-matrix access are the zero function. -/
theorem offsets2_zero : (![0, 0] : Fin 2 → Nat) = fun _ => 0 := funext fun a => by fin_cases a <;> rfl

/-- The block indices at point `t` (decided over the ten points): the output's is `(0, t, 0)`, the blocks advancing
    along the row axis only; the weight matrix's is `(0, 0)` at every point (its one block is the whole matrix). -/
theorem index_facts : ∀ t : Fin cfg1.N,
    win1_2.index t (0 : Fin 3) = 0 ∧ win1_2.index t (1 : Fin 3) = t.val ∧ win1_2.index t (2 : Fin 3) = 0
    ∧ win1_1.index t (0 : Fin 2) = 0 ∧ win1_1.index t (1 : Fin 2) = 0 :=
  (by decide +kernel : ∀ t : Fin grid1.N, _)

/-- The input window's and the output window's index maps are the same function of the grid point. -/
theorem index_in_eq_out (t : Fin cfg1.N) : win1_0.index t = win1_2.index t := rfl

/-- The leaky rectifier acts entry by entry: equal entries give equal rectified entries, whatever the two arrays'
    shapes. -/
theorem leaky_congr {s s' : Shape} (x : FVec Ideal s .f32) (y : FVec Ideal s' .f32) (i : s.Idx) (j : s'.Idx)
    (h : x i = y j) : Cert.Spec.leaky x i = Cert.Spec.leaky y j := by
  unfold Cert.Spec.leaky; rw [h]

/-- The entry the body stores at a block index `j = (b, r, e)` at point `t` is the projection of the rectified input
    array at the array index where the output's block puts `j`: term by term of the sum over `k < 32`, the input block
    at `(b, r, k)` is the input array at the same first coordinate and row as the output's (the two index maps agree)
    and column `k` (the block's last-axis offset is zero), and the weight block at `(k, e)` is the weight array at
    `(k, e)` (its offsets are zero, as is the output block's last-axis offset). -/
theorem block_entry (t : Fin cfg1.N) (j : S4x5000x16.Idx) :
    k1_pay1 (F := Ideal) (iblk1 V c 0 t) (iblk1 V c 1 t) j
      = Cert.Spec.proj (Cert.Spec.leaky (V c main_v54 : S4x50000x32.Idx → EReal)) (V c main_arg7 : S32x16.Idx → EReal)
          (((cfg1.win 2).blk t).view.emb j) := by
  obtain ⟨b, r, e, rfl⟩ : ∃ (b : Fin 4) (r : Fin 5000) (e : Fin 16), j = ix3 b r e := ⟨j 0, j 1, j 2, eq_ix3 j⟩
  obtain ⟨e0, e1, e2, w0, w1⟩ := index_facts t
  refine (Cert.KernelIdeal.Proj.pay1_apply _ _ b r e).trans ?_
  unfold Cert.Spec.proj
  refine Finset.sum_congr rfl fun k _ => ?_
  have hin : ((cfg1.win 0).blk t).view.emb (ix3 b r k)
      = ix3 ((((cfg1.win 2).blk t).view.emb (ix3 b r e)) 0) ((((cfg1.win 2).blk t).view.emb (ix3 b r e)) 1) k := by
    funext a; apply Fin.ext
    match a with
    | ⟨0, _⟩ => rfl
    | ⟨1, _⟩ => rfl
    | ⟨2, _⟩ =>
      show win1_0.index t (2 : Fin 3) * 32 + 1 * k.val = k.val
      rw [index_in_eq_out, e2]; omega
  have hw : ((cfg1.win 1).blk t).view.emb (ix2 k e) = ix2 k ((((cfg1.win 2).blk t).view.emb (ix3 b r e)) 2) := by
    funext a; apply Fin.ext
    match a with
    | ⟨0, _⟩ =>
      show win1_1.index t (0 : Fin 2) * 32 + 1 * k.val = k.val
      rw [w0]; omega
    | ⟨1, _⟩ =>
      show win1_1.index t (1 : Fin 2) * 16 + 1 * e.val = win1_2.index t (2 : Fin 3) * 16 + 1 * e.val
      rw [w1, e2]
  refine congrArg₂ (· * ·) (leaky_congr _ _ _ _ ?_) ?_
  · exact congrArg (V c main_v54 : S4x50000x32.Idx → EReal) hin
  · exact congrArg (V c main_arg7 : S32x16.Idx → EReal) hw

/-- What point `t` writes back to the output array is block `t` of the projection of the rectified input array, both
    arrays as the region finds them: one whole-block store leaves its payload, the two whole-block loads read the input
    windows' blocks, and the payload at each block index is that array at the block's array index (`block_entry`). -/
theorem written_back (t : Fin cfg1.N) :
    (dat1 (F := Ideal) V c).flushed 2 t
      = ((cfg1.win 2).blk t).view.read (Elt Ideal)
          (Cert.Spec.proj (Cert.Spec.leaky (V c main_v54 : S4x50000x32.Idx → EReal)) (V c main_arg7 : S32x16.Idx → EReal)) := by
  show (cfg1.win 2).cut (grid1.coords t) ((dat1 V c).after 2 t) = _
  rw [after1_2]
  unfold out1_2
  rw [View.canon_unit_zero offsets3_zero]
  simp only [View.ld_unit_zero (S := S4x5000x32) offsets3_zero, View.ld_unit_zero (S := S32x16) offsets2_zero]
  funext j
  exact block_entry V c t j

/-- An index of the output array lies in point `t`'s block iff on every axis its coordinate lies in the block's range
    `[index · size, index · size + size)`. -/
theorem mem_block (t : Fin cfg1.N) (i : S4x50000x16.Idx) :
    i ∈ ((cfg1.win 2).blk t).view.set ↔ ∀ a : Fin 3, win1_2.index t a * S4x5000x16.size a ≤ (i a).val
      ∧ (i a).val < win1_2.index t a * S4x5000x16.size a + S4x5000x16.size a := by
  show i ∈ ((View.whole main_v55).slice (win1_2.rect t)).set ↔ _
  rw [View.set_slice_whole, Rect.mem_set_unit]
  exact Iff.rfl

/-- Every index `(b, n, e)` of the output array lies in the block of a point that writes back: the point `n / 5000`,
    whose block is all of the first and last axes and rows `5000 · (n / 5000) … 5000 · (n / 5000) + 4999`. -/
theorem rows_covered (i : S4x50000x16.Idx) :
    ∃ t : Fin cfg1.N, (cfg1.win 2).flush t = true ∧ i ∈ ((cfg1.win 2).blk t).view.set := by
  have h0 : (i 0).val < 4 := (i 0).isLt
  have h1 : (i 1).val < 50000 := (i 1).isLt
  have h2 : (i 2).val < 16 := (i 2).isLt
  have hN : grid1.N = 10 := N_1
  have ht : (i 1).val / 5000 < cfg1.N := by show _ < grid1.N; rw [hN]; omega
  obtain ⟨e0, e1, e2, -, -⟩ := index_facts ⟨(i 1).val / 5000, ht⟩
  refine ⟨⟨(i 1).val / 5000, ht⟩, flush1_2 _, ?_⟩
  rw [mem_block]
  intro a
  match a with
  | ⟨0, _⟩ =>
    show win1_2.index ⟨(i 1).val / 5000, ht⟩ (0 : Fin 3) * 4 ≤ (i 0).val
      ∧ (i 0).val < win1_2.index ⟨(i 1).val / 5000, ht⟩ (0 : Fin 3) * 4 + 4
    rw [e0]; omega
  | ⟨1, _⟩ =>
    show win1_2.index ⟨(i 1).val / 5000, ht⟩ (1 : Fin 3) * 5000 ≤ (i 1).val
      ∧ (i 1).val < win1_2.index ⟨(i 1).val / 5000, ht⟩ (1 : Fin 3) * 5000 + 5000
    rw [e1]
    show (i 1).val / 5000 * 5000 ≤ (i 1).val ∧ (i 1).val < (i 1).val / 5000 * 5000 + 5000
    omega
  | ⟨2, _⟩ =>
    show win1_2.index ⟨(i 1).val / 5000, ht⟩ (2 : Fin 3) * 16 ≤ (i 2).val
      ∧ (i 2).val < win1_2.index ⟨(i 1).val / 5000, ht⟩ (2 : Fin 3) * 16 + 16
    rw [e2]; omega

/-- The region's arrays: window 0 stages the input array, window 1 the weight matrix, window 2 the output array. -/
theorem arrays : Pipeline.arrRef spec1 0 = main_v54 ∧ Pipeline.arrRef spec1 1 = main_arg7
    ∧ Pipeline.arrRef spec1 2 = main_v55 := ⟨rfl, rfl, rfl⟩

/-- THE REGION'S VALUE: after its ten points the output array holds, at `(b, n, e)`,
    `∑ k < 32, leaky(A)[b, n, k] · W[k, e]` — the projection by the weight matrix `W` of the rectified input array
    `A`, both as the region finds them: every point writes back its block of that one array, and the blocks cover the
    output. -/
theorem region1 :
    (dat1 (F := Ideal) V c).arrAt 2 cfg1.N
      = Cert.Spec.proj (Cert.Spec.leaky (V c main_v54 : S4x50000x32.Idx → EReal)) (V c main_arg7 : S32x16.Idx → EReal) :=
  (dat1 V c).arrAt_eq_of_cover 2 _ (fun t _ => written_back V c t) rows_covered

end Cert.KernelIdeal.Region1Value

end
-- ==== Proof.Region2Value.lean ====
/-
  The pointwise region: the array the third tiled region leaves is the entry-wise leaky rectifier of the array it
  finds.

  The region runs over ten grid points. At point t it reads rows 5000·t … 5000·t + 4999 of a 4 × 50000 × 16 array
  (all of the first and last axes), applies  select (x ≥ 0) x (slope · x)  to every entry of that 4 × 5000 × 16 block,
  and writes the result to the same rows of the output array. Three steps:

  * the stored value is the leaky rectifier of the loaded block, entry by entry (`leaky_payload`);
  * what point t writes back is therefore block t of  leaky A,  A the input array as the region finds it: the input's
    and the output's blocks sit at the same rows, so the input block read at a block index j is A at the array index
    the output's block puts j at (`written_back`);
  * every row n lies in the block of point n / 5000, so the ten blocks cover the output array (`rows_covered`) and
    the array ends holding  leaky A  everywhere (`region2`).
-/
import proofs.«155567_j79869211836445_1_alg».proof.Proof.Gen.KernelIdeal.Frame
import proofs.«155567_j79869211836445_1_alg».proof.Proof.Spec
import Idealize.ShloMosaic.Lib.Pipeline.Value
import Idealize.ShloMosaic.Lib.ValueIdx

noncomputable section

namespace Cert.KernelIdeal.Region2Value

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The offsets `(0, 0, 0)` of a whole-block access are the zero function. -/
theorem offsets_zero : (![0, 0, 0] : Fin 3 → Nat) = fun _ => 0 := funext fun a => by fin_cases a <;> rfl

/-- The value the body stores is the leaky rectifier of the block it loaded, entry by entry: the change of shape is
    between equal shapes, hence the identity; the two broadcasts read their scalars (zero and the slope); comparison,
    product and select act on the entries. -/
theorem leaky_payload (x0 : Vec Ideal S4x5000x16 .f32) : k2_pay1 (F := Ideal) x0 = Cert.Spec.leaky x0 := by
  unfold k2_pay1
  simp only [shapeCast_self]
  rfl

/-- The block index of the output window at point `t` is `(0, t, 0)`: the blocks advance along the row axis only
    (decided over the ten points). -/
theorem out_index : ∀ t : Fin cfg2.N,
    win2_1.index t (0 : Fin 3) = 0 ∧ win2_1.index t (1 : Fin 3) = t.val ∧ win2_1.index t (2 : Fin 3) = 0 :=
  (by decide +kernel : ∀ t : Fin grid2.N, _)

/-- What point `t` writes back to the output array is block `t` of the leaky rectifier of the input array as the region
    finds it: one whole-block store leaves its payload, the payload is the leaky rectifier of the loaded block, and the
    input window's block and the output window's block are the same rows `5000·t + r` of their arrays (the two index
    maps are the same function of the grid point), so the loaded block at `j` is the input array at the index where the
    output's block puts `j`. -/
theorem written_back (t : Fin cfg2.N) :
    (dat2 (F := Ideal) V c).flushed 1 t
      = ((cfg2.win 1).blk t).view.read (Elt Ideal) (Cert.Spec.leaky (V c main_v109 : S4x50000x16.Idx → EReal)) := by
  show (cfg2.win 1).cut (grid2.coords t) ((dat2 V c).after 1 t) = _
  rw [after2_1]
  unfold out2_1
  rw [View.canon_unit_zero offsets_zero]
  simp only [View.ld_unit_zero (S := S4x5000x16) offsets_zero]
  rw [leaky_payload]
  funext j
  have hblk : iblk2 V c 0 t j = V c main_v109 (((cfg2.win 1).blk t).view.emb j) := rfl
  show Cert.Spec.leaky (iblk2 V c 0 t) j
    = Cert.Spec.leaky (V c main_v109 : S4x50000x16.Idx → EReal) (((cfg2.win 1).blk t).view.emb j)
  unfold Cert.Spec.leaky
  rw [hblk]

/-- An index of the output array lies in point `t`'s block iff on every axis its coordinate lies in the block's range
    `[index · size, index · size + size)`. -/
theorem mem_block (t : Fin cfg2.N) (i : S4x50000x16.Idx) :
    i ∈ ((cfg2.win 1).blk t).view.set ↔ ∀ a : Fin 3, win2_1.index t a * S4x5000x16.size a ≤ (i a).val
      ∧ (i a).val < win2_1.index t a * S4x5000x16.size a + S4x5000x16.size a := by
  show i ∈ ((View.whole main_v110).slice (win2_1.rect t)).set ↔ _
  rw [View.set_slice_whole, Rect.mem_set_unit]
  exact Iff.rfl

/-- Every index `(b, n, e)` of the output array lies in the block of a point that writes back: the point `n / 5000`,
    whose block is all of the first and last axes and rows `5000 · (n / 5000) … 5000 · (n / 5000) + 4999`. -/
theorem rows_covered (i : S4x50000x16.Idx) :
    ∃ t : Fin cfg2.N, (cfg2.win 1).flush t = true ∧ i ∈ ((cfg2.win 1).blk t).view.set := by
  have h0 : (i 0).val < 4 := (i 0).isLt
  have h1 : (i 1).val < 50000 := (i 1).isLt
  have h2 : (i 2).val < 16 := (i 2).isLt
  have hN : grid2.N = 10 := N_2
  have ht : (i 1).val / 5000 < cfg2.N := by show _ < grid2.N; rw [hN]; omega
  obtain ⟨e0, e1, e2⟩ := out_index ⟨(i 1).val / 5000, ht⟩
  refine ⟨⟨(i 1).val / 5000, ht⟩, flush2_1 _, ?_⟩
  rw [mem_block]
  intro a
  match a with
  | ⟨0, _⟩ =>
    show win2_1.index ⟨(i 1).val / 5000, ht⟩ (0 : Fin 3) * 4 ≤ (i 0).val
      ∧ (i 0).val < win2_1.index ⟨(i 1).val / 5000, ht⟩ (0 : Fin 3) * 4 + 4
    rw [e0]; omega
  | ⟨1, _⟩ =>
    show win2_1.index ⟨(i 1).val / 5000, ht⟩ (1 : Fin 3) * 5000 ≤ (i 1).val
      ∧ (i 1).val < win2_1.index ⟨(i 1).val / 5000, ht⟩ (1 : Fin 3) * 5000 + 5000
    rw [e1]
    show (i 1).val / 5000 * 5000 ≤ (i 1).val ∧ (i 1).val < (i 1).val / 5000 * 5000 + 5000
    omega
  | ⟨2, _⟩ =>
    show win2_1.index ⟨(i 1).val / 5000, ht⟩ (2 : Fin 3) * 16 ≤ (i 2).val
      ∧ (i 2).val < win2_1.index ⟨(i 1).val / 5000, ht⟩ (2 : Fin 3) * 16 + 16
    rw [e2]; omega

/-- The region's arrays: window 0 stages the input array, window 1 the output array. -/
theorem arrays : Pipeline.arrRef spec2 0 = main_v109 ∧ Pipeline.arrRef spec2 1 = main_v110 := ⟨rfl, rfl⟩

/-- THE REGION'S VALUE: after its ten points the output array holds the leaky rectifier of the input array as the
    region finds it, entry by entry: every point writes back its block of that one array, and the blocks cover the
    output. -/
theorem region2 :
    (dat2 (F := Ideal) V c).arrAt 1 cfg2.N = Cert.Spec.leaky (V c main_v109 : S4x50000x16.Idx → EReal) :=
  (dat2 V c).arrAt_eq_of_cover 1 _ (fun t _ => written_back V c t) rows_covered

end Cert.KernelIdeal.Region2Value

end
-- ==== Proof.KernelBuffers.lean ====
/-
  The tiled program's buffers at the boundaries between its stretches of host operations and its three tiled regions.

  The run alternates host stretches and tiled regions; the buffer contents at each boundary are a fold over the launch
  memory `m`: `W0` at launch, `W1` after region 0, `W2` after the first following host stretch, `W3` after region 1,
  `W4` after the next host stretch, `W5` after region 2. Three kinds of statement:

  * an ARGUMENT array (one of the thirteen buffers of index below 13) is never written by a host operation, whose result
    buffers all have index at least 13 (`keeps_low`, with the hypothesis checked for each stretch);
  * so an argument that is no array of the regions passed so far still holds its launch contents at every boundary
    (`W1_arg` … `W5_arg`);
  * each region's output array at the region's exit is the specification's function of what the region found on entry:
    the projection of the launch input by the first weight matrix (`W1_out`), the projection by the second weight
    matrix of the rectified entry array (`W3_out`), the rectified entry array (`W5_out`).
-/
import proofs.«155567_j79869211836445_1_alg».proof.Proof.Gen.KernelIdeal.Frame
import proofs.«155567_j79869211836445_1_alg».proof.Proof.Spec
import proofs.«155567_j79869211836445_1_alg».proof.Proof.Region0Value
import proofs.«155567_j79869211836445_1_alg».proof.Proof.Region1Value
import proofs.«155567_j79869211836445_1_alg».proof.Proof.Region2Value

noncomputable section

namespace Cert.KernelIdeal.Hand

open Cert.KernelIdeal Cert.KernelIdeal.Gen Idealize.ShloMosaic Idealize.ShloMosaic.TcCoe Idealize.SL.Sem

/-! ## A host stretch keeps every argument array -/

/-- A list of host operations each of which writes only buffers of index at least 13 leaves every buffer of index
    below 13 as it was: such a buffer is none of the written ones, since equal buffers have equal indices. -/
theorem keeps_low (ops : List (HloOp τ sig (Elt Ideal)))
    (h : ops.Forall fun op => ∀ d ∈ op.writes, ∃ r : Ref sig .tc, d = Proc.devRef .tc r ∧ 13 ≤ r.idx.val)
    (b : Ref sig .tc) (hb : b.idx.val < 13) (V : Valuation τ sig (Elt Ideal)) :
    StableHlo.after ops V (Proc.devRef .tc b) = V (Proc.devRef .tc b) :=
  StableHlo.after_of_forall_not_mem ops V fun op hop hmem => by
    obtain ⟨r, hr, hge⟩ := (List.forall_iff_forall_mem.mp h) op hop _ hmem
    have hbr : b = r := Proc.devRef_injective _ hr
    subst hbr; omega

set_option maxHeartbeats 40000000 in
/-- Every operation of the host stretch between regions 0 and 1 writes one buffer, of index at least 13. -/
theorem hostOps1_high : (hostOps1 : List (HloOp τ sig (Elt Ideal))).Forall fun op =>
    ∀ d ∈ op.writes, ∃ r : Ref sig .tc, d = Proc.devRef .tc r ∧ 13 ≤ r.idx.val := by
  simp only [hostOps1, List.Forall, StableHlo.nullary_writes, StableHlo.unary_writes, StableHlo.binary_writes,
    StableHlo.ternary_writes, StableHlo.reshape_writes, Finset.mem_singleton, forall_eq]
  repeat' apply And.intro
  all_goals exact ⟨_, rfl, by decide⟩

set_option maxHeartbeats 40000000 in
/-- Every operation of the host stretch between regions 1 and 2 writes one buffer, of index at least 13. -/
theorem hostOps2_high : (hostOps2 : List (HloOp τ sig (Elt Ideal))).Forall fun op =>
    ∀ d ∈ op.writes, ∃ r : Ref sig .tc, d = Proc.devRef .tc r ∧ 13 ≤ r.idx.val := by
  simp only [hostOps2, List.Forall, StableHlo.nullary_writes, StableHlo.unary_writes, StableHlo.binary_writes,
    StableHlo.ternary_writes, StableHlo.reshape_writes, Finset.mem_singleton, forall_eq]
  repeat' apply And.intro
  all_goals exact ⟨_, rfl, by decide⟩

set_option maxHeartbeats 4000000 in
/-- Every operation of the host stretch after region 2 writes one buffer, of index at least 13. -/
theorem hostOps3_high : (hostOps3 : List (HloOp τ sig (Elt Ideal))).Forall fun op =>
    ∀ d ∈ op.writes, ∃ r : Ref sig .tc, d = Proc.devRef .tc r ∧ 13 ≤ r.idx.val := by
  simp only [hostOps3, List.Forall, StableHlo.nullary_writes, StableHlo.unary_writes, StableHlo.binary_writes,
    StableHlo.ternary_writes, StableHlo.reshape_writes, Finset.mem_singleton, forall_eq]
  repeat' apply And.intro
  all_goals exact ⟨_, rfl, by decide⟩

variable (m : (ℓ : Loc nD τ sig) → Buf (Elt Ideal) ℓ) (ρ : Dev nD → PrngReg) (c : Dev nD)

/-! ## The arguments at each boundary: their launch contents -/

/-- After region 0 a buffer that is none of region 0's arrays holds its launch contents. -/
theorem W1_arg (b : Ref sig .tc) (h0 : ∀ w, Pipeline.arrRef spec0 w ≠ b) :
    W1 m ρ c (Proc.devRef .tc b) = m ((c : Thread nD τ).loc b) :=
  (W1_of_ne m ρ c b h0).trans rfl

/-- On entry to region 1 an argument that is none of region 0's arrays holds its launch contents: the host stretch
    writes no argument. -/
theorem W2_arg (b : Ref sig .tc) (hb : b.idx.val < 13) (h0 : ∀ w, Pipeline.arrRef spec0 w ≠ b) :
    W2 m ρ c (Proc.devRef .tc b) = m ((c : Thread nD τ).loc b) :=
  (keeps_low hostOps1 hostOps1_high b hb (W1 m ρ c)).trans (W1_arg m ρ c b h0)

/-- After region 1 an argument that is no array of regions 0 and 1 holds its launch contents. -/
theorem W3_arg (b : Ref sig .tc) (hb : b.idx.val < 13) (h0 : ∀ w, Pipeline.arrRef spec0 w ≠ b)
    (h1 : ∀ w, Pipeline.arrRef spec1 w ≠ b) :
    W3 m ρ c (Proc.devRef .tc b) = m ((c : Thread nD τ).loc b) :=
  (W3_of_ne m ρ c b h1).trans (W2_arg m ρ c b hb h0)

/-- On entry to region 2 an argument that is no array of regions 0 and 1 holds its launch contents. -/
theorem W4_arg (b : Ref sig .tc) (hb : b.idx.val < 13) (h0 : ∀ w, Pipeline.arrRef spec0 w ≠ b)
    (h1 : ∀ w, Pipeline.arrRef spec1 w ≠ b) :
    W4 m ρ c (Proc.devRef .tc b) = m ((c : Thread nD τ).loc b) :=
  (keeps_low hostOps2 hostOps2_high b hb (W3 m ρ c)).trans (W3_arg m ρ c b hb h0 h1)

/-- After region 2 an argument that is no array of any region holds its launch contents. -/
theorem W5_arg (b : Ref sig .tc) (hb : b.idx.val < 13) (h0 : ∀ w, Pipeline.arrRef spec0 w ≠ b)
    (h1 : ∀ w, Pipeline.arrRef spec1 w ≠ b) (h2 : ∀ w, Pipeline.arrRef spec2 w ≠ b) :
    W5 m ρ c (Proc.devRef .tc b) = m ((c : Thread nD τ).loc b) :=
  (W5_of_ne m ρ c b h2).trans (W4_arg m ρ c b hb h0 h1)

/-! ## The regions' outputs as values -/

/-- Region 0's output at its exit: `out[b, n, e] = ∑ k < 32, x[b, n, k] · W₁[k, e]`, `x` and `W₁` the launch contents
    of the input and first weight arguments (region 0 is entered at launch). -/
theorem W1_out : (W1 m ρ c (Proc.devRef .tc main_v0) : S4x50000x32.Idx → EReal)
    = Cert.Spec.proj (m ((c : Thread nD τ).loc main_arg4)) (m ((c : Thread nD τ).loc main_arg5)) :=
  (W1_arr m ρ c 2).trans (Cert.KernelIdeal.Region0Value.region0 (V0 m ρ) c)

/-- Region 1's output at its exit: the projection, by the launch contents of the second weight argument (unchanged on
    entry to the region), of the leaky rectifier of the region's input array as the region finds it. -/
theorem W3_out : (W3 m ρ c (Proc.devRef .tc main_v55) : S4x50000x16.Idx → EReal)
    = Cert.Spec.proj (Cert.Spec.leaky (W2 m ρ c (Proc.devRef .tc main_v54) : S4x50000x32.Idx → EReal))
        (m ((c : Thread nD τ).loc main_arg7)) :=
  ((W3_arr m ρ c 2).trans (Cert.KernelIdeal.Region1Value.region1 (V2 m ρ) c)).trans
    (congrArg (fun w : S32x16.Idx → EReal =>
        Cert.Spec.proj (Cert.Spec.leaky (W2 m ρ c (Proc.devRef .tc main_v54) : S4x50000x32.Idx → EReal)) w)
      (W2_arg m ρ c main_arg7 (by decide) (by decide)))

/-- Region 2's output at its exit: the leaky rectifier of the region's input array as the region finds it. -/
theorem W5_out : (W5 m ρ c (Proc.devRef .tc main_v110) : S4x50000x16.Idx → EReal)
    = Cert.Spec.leaky (W4 m ρ c (Proc.devRef .tc main_v109) : S4x50000x16.Idx → EReal) :=
  (W5_arr m ρ c 1).trans (Cert.KernelIdeal.Region2Value.region2 (V4 m ρ) c)

end Cert.KernelIdeal.Hand

end
-- ==== Proof.StretchBasics.lean ====
/-
  Names shared by the comparisons of the two programs' common host stretches: the two programs' buffer contents and
  their buffers seen as device buffers.  Both programs run the same sparse gather / scatter-add stretch twice and the
  same read-out; the modules that import this one prove that, from equal inputs, the two runs of each stretch leave
  equal results.
-/
import proofs.«155567_j79869211836445_1_alg».proof.KernelIdeal
import proofs.«155567_j79869211836445_1_alg».proof.ReferenceIdeal
import Idealize.ShloMosaic.PureOps.Ideal

noncomputable section

namespace Cert.Stretches

open Idealize.ShloMosaic

/-- Buffer contents of the tiled program's device, at the ideal instance. -/
abbrev KV := Valuation Cert.KernelIdeal.τ Cert.KernelIdeal.sig (Elt Ideal)
/-- Buffer contents of the reference program's device, at the ideal instance. -/
abbrev RV := Valuation Cert.ReferenceIdeal.τ Cert.ReferenceIdeal.sig (Elt Ideal)

/-- A buffer of the tiled program as a device buffer. -/
abbrev dK (b : Ref Cert.KernelIdeal.sig .tc) : DevRef Cert.KernelIdeal.τ Cert.KernelIdeal.sig :=
  Proc.devRef (τ := Cert.KernelIdeal.τ) .tc b
/-- A buffer of the reference program as a device buffer. -/
abbrev dR (b : Ref Cert.ReferenceIdeal.sig .tc) : DevRef Cert.ReferenceIdeal.τ Cert.ReferenceIdeal.sig :=
  Proc.devRef (τ := Cert.ReferenceIdeal.τ) .tc b

end Cert.Stretches

end
-- ==== Proof.StretchReadout.lean ====
/-
  The read-out stretch, shared by the two programs: rows 49998 and 49999 of the last 4 × 50000 × 16 array, each
  multiplied by its 16 × 1 weight and shifted by its bias, the two 4 × 1 results placed side by side.  Both programs
  apply these fifteen host operations, in the same order, to their own buffers; from equal inputs they leave equal
  results, because the two chains of operations are the same functions applied to the same arguments.
-/
import proofs.«155567_j79869211836445_1_alg».proof.Proof.Gen.KernelIdeal.Launch
import proofs.«155567_j79869211836445_1_alg».proof.Proof.Gen.ReferenceIdeal
import proofs.«155567_j79869211836445_1_alg».proof.Proof.RefOps
import proofs.«155567_j79869211836445_1_alg».proof.Proof.StretchBasics
import Idealize.ShloMosaic.Lib.StableHlo.Run

set_option pp.maxSteps 5000
set_option pp.deepTerms false

noncomputable section

namespace Cert.Stretches

open Idealize.ShloMosaic Idealize.ShloMosaic.StableHlo

attribute [local irreducible] Host.gather Host.scatterAdd in
set_option maxRecDepth 16384 in
set_option maxHeartbeats 2000000 in
/-- From equal last arrays, weights and biases the two programs' read-outs are equal: each side's fifteen
    operations compose to the same term (the final placing side by side of the two 4 × 1 × 1 pieces, each piece the
    broadcast of `row · weight + bias`), read off operation by operation. -/
theorem readout (W : KV) (M : RV)
    (h : W (dK Cert.KernelIdeal.main_v110) = M (dR Cert.ReferenceIdeal.main_v111))
    (h9 : W (dK Cert.KernelIdeal.main_arg9) = M (dR Cert.ReferenceIdeal.main_arg9))
    (h10 : W (dK Cert.KernelIdeal.main_arg10) = M (dR Cert.ReferenceIdeal.main_arg10))
    (h11 : W (dK Cert.KernelIdeal.main_arg11) = M (dR Cert.ReferenceIdeal.main_arg11))
    (h12 : W (dK Cert.KernelIdeal.main_arg12) = M (dR Cert.ReferenceIdeal.main_arg12)) :
    after (Cert.KernelIdeal.Gen.hostOps3 (F := Ideal)) W (dK Cert.KernelIdeal.main_v125)
      = after (Cert.ReferenceIdeal.Hand.readout (F := Ideal)) M (dR Cert.ReferenceIdeal.main_v126) := by
  after_results_simp
  refine congrArg₂ (fun a b => concatenate Cert.ReferenceIdeal.S4x2x1 1
    [⟨Cert.ReferenceIdeal.S4x1x1, a⟩, ⟨Cert.ReferenceIdeal.S4x1x1, b⟩]
    Cert.ReferenceIdeal.Facts₀.concatenates_S4x1x1_S4x1x1_S4x2x1_d1) ?_ ?_
  · after_results_simp
    rw [h, h9, h10]
    rfl
  · after_results_simp
    rw [h, h11, h12]
    rfl

end Cert.Stretches

end
-- ==== Proof.StretchWavelet1.lean ====
/-
  The first sparse stretch, shared by the two programs: from a 4 × 50000 × 32 array, the gather of its rows at the
  column indices of the sparse matrix, the scaling by the matrix values, the scatter-add to 4 × 100000 × 32, and the
  same again through the inverse matrix (its values scaled by the gathered diagonal) back to 4 × 50000 × 32.  Both
  programs apply these sixty-six host operations, in the same order, to their own buffers; from equal inputs they
  leave equal results.
-/
import proofs.«155567_j79869211836445_1_alg».proof.Proof.Gen.KernelIdeal.Launch
import proofs.«155567_j79869211836445_1_alg».proof.Proof.Gen.ReferenceIdeal
import proofs.«155567_j79869211836445_1_alg».proof.Proof.RefOps
import proofs.«155567_j79869211836445_1_alg».proof.Proof.StretchBasics
import Idealize.ShloMosaic.Lib.StableHlo.Run

set_option pp.maxSteps 5000
set_option pp.deepTerms false

noncomputable section

namespace Cert.Stretches

open Idealize.ShloMosaic Idealize.ShloMosaic.StableHlo

attribute [local irreducible] Host.gather Host.scatterAdd in
set_option maxRecDepth 16384 in
set_option maxHeartbeats 40000000 in
/-- From equal projected arrays, index pairs, values and diagonal the two programs' first sparse stretches leave
    equal arrays: each side's sixty-six operations compose to the same term, read off operation by operation. -/
theorem wavelet1 (W : KV) (M : RV)
    (h : W (dK Cert.KernelIdeal.main_v0) = M (dR Cert.ReferenceIdeal.main_v0))
    (h0 : W (dK Cert.KernelIdeal.main_arg0) = M (dR Cert.ReferenceIdeal.main_arg0))
    (h1 : W (dK Cert.KernelIdeal.main_arg1) = M (dR Cert.ReferenceIdeal.main_arg1))
    (h2 : W (dK Cert.KernelIdeal.main_arg2) = M (dR Cert.ReferenceIdeal.main_arg2))
    (h3 : W (dK Cert.KernelIdeal.main_arg3) = M (dR Cert.ReferenceIdeal.main_arg3))
    (h6 : W (dK Cert.KernelIdeal.main_arg6) = M (dR Cert.ReferenceIdeal.main_arg6)) :
    after (Cert.KernelIdeal.Gen.hostOps1 (F := Ideal)) W (dK Cert.KernelIdeal.main_v54)
      = after (Cert.ReferenceIdeal.Hand.wavelet1_tail (F := Ideal))
          (after (Cert.ReferenceIdeal.Hand.wavelet1_head (F := Ideal)) M) (dR Cert.ReferenceIdeal.main_v54) := by
  after_results_simp
  rw [h, h0, h1, h2, h3, h6]
  rfl

end Cert.Stretches

end
-- ==== Proof.StretchWavelet2.lean ====
/-
  The second sparse stretch, shared by the two programs: the first stretch's operations again on a 4 × 50000 × 16
  array (gather at the column indices, scaling by the values, scatter-add to 4 × 100000 × 16, then back through the
  inverse matrix scaled by the second gathered diagonal to 4 × 50000 × 16).  Both programs apply these sixty-six
  host operations, in the same order, to their own buffers; from equal inputs they leave equal results.
-/
import proofs.«155567_j79869211836445_1_alg».proof.Proof.Gen.KernelIdeal.Launch
import proofs.«155567_j79869211836445_1_alg».proof.Proof.Gen.ReferenceIdeal
import proofs.«155567_j79869211836445_1_alg».proof.Proof.RefOps
import proofs.«155567_j79869211836445_1_alg».proof.Proof.StretchBasics
import Idealize.ShloMosaic.Lib.StableHlo.Run

set_option pp.maxSteps 5000
set_option pp.deepTerms false

noncomputable section

namespace Cert.Stretches

open Idealize.ShloMosaic Idealize.ShloMosaic.StableHlo

attribute [local irreducible] Host.gather Host.scatterAdd in
set_option maxRecDepth 16384 in
set_option maxHeartbeats 40000000 in
/-- From equal projected arrays, index pairs, values and diagonal the two programs' second sparse stretches leave
    equal arrays: each side's sixty-six operations compose to the same term, read off operation by operation. -/
theorem wavelet2 (W : KV) (M : RV)
    (h : W (dK Cert.KernelIdeal.main_v55) = M (dR Cert.ReferenceIdeal.main_v56))
    (h0 : W (dK Cert.KernelIdeal.main_arg0) = M (dR Cert.ReferenceIdeal.main_arg0))
    (h1 : W (dK Cert.KernelIdeal.main_arg1) = M (dR Cert.ReferenceIdeal.main_arg1))
    (h2 : W (dK Cert.KernelIdeal.main_arg2) = M (dR Cert.ReferenceIdeal.main_arg2))
    (h3 : W (dK Cert.KernelIdeal.main_arg3) = M (dR Cert.ReferenceIdeal.main_arg3))
    (h8 : W (dK Cert.KernelIdeal.main_arg8) = M (dR Cert.ReferenceIdeal.main_arg8)) :
    after (Cert.KernelIdeal.Gen.hostOps2 (F := Ideal)) W (dK Cert.KernelIdeal.main_v109)
      = after (Cert.ReferenceIdeal.Hand.wavelet2_tail (F := Ideal))
          (after (Cert.ReferenceIdeal.Hand.wavelet2_head (F := Ideal)) M) (dR Cert.ReferenceIdeal.main_v110) := by
  after_results_simp
  rw [h, h0, h1, h2, h3, h8]
  rfl

end Cert.Stretches

end
-- ==== Proof.Bridge.lean ====
/-
  The two programs' results are one value.

  On the kernel's side the buffers at the region boundaries are folds `W1 … W6` over the launch memory; on the
  reference's side the buffers after each stage are folds `M1 … M5`, and @main's fold is the read-out over `M5`.
  From launch memories that agree on the thirteen arguments the two chains agree stage by stage:

  * the first region's output and the first `dot_general`'s result are both `proj x W₁`;
  * the first sparse stretch is the same 66 operations on both sides, applied to equal inputs;
  * the second region's output and the leaky rectifier followed by the second `dot_general` are both
    `proj (leaky ·) W₂` of equal inputs;
  * the second sparse stretch, again the same 66 operations;
  * the third region's output and the second leaky rectifier are both `leaky ·`;
  * the read-out, the same 15 operations.

  No step uses more than the equality of the inputs: sums of thirty-two products are compared as the same sum, so
  the precondition (finite inputs) is never opened.
-/
import proofs.«155567_j79869211836445_1_alg».proof.Proof.KernelBuffers
import proofs.«155567_j79869211836445_1_alg».proof.Proof.RefBuffers
import proofs.«155567_j79869211836445_1_alg».proof.Proof.StretchReadout
import proofs.«155567_j79869211836445_1_alg».proof.Proof.StretchWavelet1
import proofs.«155567_j79869211836445_1_alg».proof.Proof.StretchWavelet2

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- From launch memories agreeing on the arguments, the kernel's result buffer at the return holds what the
    reference's fold leaves in its result buffer. -/
theorem result_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (Cert.KernelIdeal.Gen.W6 m ρ c (Proc.devRef .tc Cert.KernelIdeal.main_v125) : (⟨3, ![4, 2, 1]⟩ : Shape).Idx → EReal)
      = after Cert.ReferenceIdeal.Hand.ops (launchContents m' c) (Proc.devRef .tc Cert.ReferenceIdeal.main_v126) := by
  obtain ⟨g0, g1, g2, g3, g4, g5, g6, g7, g8, g9, g10, g11, g12⟩ := hag
  -- the first projection: both sides are proj x W₁ of the launched arrays
  have e1 : (Cert.KernelIdeal.Gen.W1 m ρ c (Proc.devRef .tc Cert.KernelIdeal.main_v0) : (⟨3, ![4, 50000, 32]⟩ : Shape).Idx → EReal)
      = Cert.ReferenceIdeal.Hand.M1 (launchContents m' c) (Proc.devRef .tc Cert.ReferenceIdeal.main_v0) := by
    rw [Cert.KernelIdeal.Hand.W1_out, Cert.ReferenceIdeal.Hand.M1_out]
    exact congrArg₂ Cert.Spec.proj g4.symm g5.symm
  -- the first sparse stretch
  have e2 : (Cert.KernelIdeal.Gen.W2 m ρ c (Proc.devRef .tc Cert.KernelIdeal.main_v54) : (⟨3, ![4, 50000, 32]⟩ : Shape).Idx → EReal)
      = Cert.ReferenceIdeal.Hand.M2 (launchContents m' c) (Proc.devRef .tc Cert.ReferenceIdeal.main_v54) :=
    Cert.Stretches.wavelet1 (Cert.KernelIdeal.Gen.W1 m ρ c) (Cert.ReferenceIdeal.Hand.M1 (launchContents m' c)) e1
      ((Cert.KernelIdeal.Hand.W1_arg m ρ c Cert.KernelIdeal.main_arg0 (by decide)).trans (g0.symm.trans (Cert.ReferenceIdeal.Hand.M1_arg (launchContents m' c) Cert.ReferenceIdeal.main_arg0 (by decide)).symm))
      ((Cert.KernelIdeal.Hand.W1_arg m ρ c Cert.KernelIdeal.main_arg1 (by decide)).trans (g1.symm.trans (Cert.ReferenceIdeal.Hand.M1_arg (launchContents m' c) Cert.ReferenceIdeal.main_arg1 (by decide)).symm))
      ((Cert.KernelIdeal.Hand.W1_arg m ρ c Cert.KernelIdeal.main_arg2 (by decide)).trans (g2.symm.trans (Cert.ReferenceIdeal.Hand.M1_arg (launchContents m' c) Cert.ReferenceIdeal.main_arg2 (by decide)).symm))
      ((Cert.KernelIdeal.Hand.W1_arg m ρ c Cert.KernelIdeal.main_arg3 (by decide)).trans (g3.symm.trans (Cert.ReferenceIdeal.Hand.M1_arg (launchContents m' c) Cert.ReferenceIdeal.main_arg3 (by decide)).symm))
      ((Cert.KernelIdeal.Hand.W1_arg m ρ c Cert.KernelIdeal.main_arg6 (by decide)).trans (g6.symm.trans (Cert.ReferenceIdeal.Hand.M1_arg (launchContents m' c) Cert.ReferenceIdeal.main_arg6 (by decide)).symm))
  -- the leaky rectifier and the second projection
  have e3 : (Cert.KernelIdeal.Gen.W3 m ρ c (Proc.devRef .tc Cert.KernelIdeal.main_v55) : (⟨3, ![4, 50000, 16]⟩ : Shape).Idx → EReal)
      = Cert.ReferenceIdeal.Hand.M3 (launchContents m' c) (Proc.devRef .tc Cert.ReferenceIdeal.main_v56) := by
    rw [Cert.KernelIdeal.Hand.W3_out, Cert.ReferenceIdeal.Hand.M3_out, e2]
    exact congrArg (Cert.Spec.proj _) g7.symm
  -- the second sparse stretch
  have e4 : (Cert.KernelIdeal.Gen.W4 m ρ c (Proc.devRef .tc Cert.KernelIdeal.main_v109) : (⟨3, ![4, 50000, 16]⟩ : Shape).Idx → EReal)
      = Cert.ReferenceIdeal.Hand.M4 (launchContents m' c) (Proc.devRef .tc Cert.ReferenceIdeal.main_v110) :=
    Cert.Stretches.wavelet2 (Cert.KernelIdeal.Gen.W3 m ρ c) (Cert.ReferenceIdeal.Hand.M3 (launchContents m' c)) e3
      ((Cert.KernelIdeal.Hand.W3_arg m ρ c Cert.KernelIdeal.main_arg0 (by decide) (by decide) (by decide)).trans (g0.symm.trans (Cert.ReferenceIdeal.Hand.M3_arg (launchContents m' c) Cert.ReferenceIdeal.main_arg0 (by decide)).symm))
      ((Cert.KernelIdeal.Hand.W3_arg m ρ c Cert.KernelIdeal.main_arg1 (by decide) (by decide) (by decide)).trans (g1.symm.trans (Cert.ReferenceIdeal.Hand.M3_arg (launchContents m' c) Cert.ReferenceIdeal.main_arg1 (by decide)).symm))
      ((Cert.KernelIdeal.Hand.W3_arg m ρ c Cert.KernelIdeal.main_arg2 (by decide) (by decide) (by decide)).trans (g2.symm.trans (Cert.ReferenceIdeal.Hand.M3_arg (launchContents m' c) Cert.ReferenceIdeal.main_arg2 (by decide)).symm))
      ((Cert.KernelIdeal.Hand.W3_arg m ρ c Cert.KernelIdeal.main_arg3 (by decide) (by decide) (by decide)).trans (g3.symm.trans (Cert.ReferenceIdeal.Hand.M3_arg (launchContents m' c) Cert.ReferenceIdeal.main_arg3 (by decide)).symm))
      ((Cert.KernelIdeal.Hand.W3_arg m ρ c Cert.KernelIdeal.main_arg8 (by decide) (by decide) (by decide)).trans (g8.symm.trans (Cert.ReferenceIdeal.Hand.M3_arg (launchContents m' c) Cert.ReferenceIdeal.main_arg8 (by decide)).symm))
  -- the last leaky rectifier
  have e5 : (Cert.KernelIdeal.Gen.W5 m ρ c (Proc.devRef .tc Cert.KernelIdeal.main_v110) : (⟨3, ![4, 50000, 16]⟩ : Shape).Idx → EReal)
      = Cert.ReferenceIdeal.Hand.M5 (launchContents m' c) (Proc.devRef .tc Cert.ReferenceIdeal.main_v111) := by
    rw [Cert.KernelIdeal.Hand.W5_out, Cert.ReferenceIdeal.Hand.M5_out, e4]
  -- the read-out
  rw [Cert.ReferenceIdeal.Hand.ops_fold]
  exact Cert.Stretches.readout (Cert.KernelIdeal.Gen.W5 m ρ c) (Cert.ReferenceIdeal.Hand.M5 (launchContents m' c)) e5
    ((Cert.KernelIdeal.Hand.W5_arg m ρ c Cert.KernelIdeal.main_arg9 (by decide) (by decide) (by decide) (by decide)).trans (g9.symm.trans (Cert.ReferenceIdeal.Hand.M5_arg (launchContents m' c) Cert.ReferenceIdeal.main_arg9 (by decide)).symm))
    ((Cert.KernelIdeal.Hand.W5_arg m ρ c Cert.KernelIdeal.main_arg10 (by decide) (by decide) (by decide) (by decide)).trans (g10.symm.trans (Cert.ReferenceIdeal.Hand.M5_arg (launchContents m' c) Cert.ReferenceIdeal.main_arg10 (by decide)).symm))
    ((Cert.KernelIdeal.Hand.W5_arg m ρ c Cert.KernelIdeal.main_arg11 (by decide) (by decide) (by decide) (by decide)).trans (g11.symm.trans (Cert.ReferenceIdeal.Hand.M5_arg (launchContents m' c) Cert.ReferenceIdeal.main_arg11 (by decide)).symm))
    ((Cert.KernelIdeal.Hand.W5_arg m ρ c Cert.KernelIdeal.main_arg12 (by decide) (by decide) (by decide) (by decide)).trans (g12.symm.trans (Cert.ReferenceIdeal.Hand.M5_arg (launchContents m' c) Cert.ReferenceIdeal.main_arg12 (by decide)).symm))

end Cert.Bridge

end
-- ==== Proof.lean ====
/-
  The certificate of a two-layer graph-wavelet network's forward pass: a tiled kernel program against its plain
  reference, equal as extended reals.

  Both programs compute, from node features `x` (4 × 50000 × 32), weights `W₁` (32 × 32), `W₂` (32 × 16), sparse
  wavelet operators given as index / value lists and two diagonals,

      out = readout (leaky (T₂ (proj (leaky (T₁ (proj x W₁))) W₂)))

  where `proj` multiplies the last axis by a weight matrix, `leaky` is the leaky rectifier with slope the binary32
  word of 0.2, `T₁`, `T₂` are the sparse gather · value → scatter-add stretches (the same host operations in both
  programs), and `readout` takes rows 49998 and 49999 through two 16 × 1 products and biases. The kernel program
  computes `proj`, `proj ∘ leaky` and the last `leaky` inside three tiled regions (ten blocks of 5000 rows each, the
  products as block matrix products into a zero accumulator, inputs rounded to bf16 on the way in — the identity on
  extended reals); the reference computes them by whole-array host operations.

  The pieces:
  * `Spec`: `leaky` and `proj` as whole-array functions.
  * `ProjPayload`, `Region0Value`, `Region1Value`, `Region2Value`: each region's output array after its ten
    write-backs is `proj`, `proj ∘ leaky`, `leaky` of the arrays the region found.
  * `KernelRun`, `KernelBuffers`: the kernel program's run with every buffer named, the argument arrays and the
    three region outputs at each boundary.
  * `RefOps`, `RefRun`, `RefLeaky`, `RefDot`, `RefBuffers`: the reference's @main as a list of operations, its
    run, and its three corresponding stages as `proj`, `proj ∘ leaky`, `leaky`.
  * `SharedStretches` and its parts: the shared host stretches leave equal results from equal inputs.
  * `Bridge`: the two result buffers hold one value.

  The frames of the two kernel programs are the generated ones; the reference's frame is its run with the result
  dropped; the idealization rewrote nothing, so there is nothing to preserve beyond `True`.
-/
import proofs.«155567_j79869211836445_1_alg».proof.Defs
import proofs.«155567_j79869211836445_1_alg».proof.Proof.Gen.Kernel
import proofs.«155567_j79869211836445_1_alg».proof.Proof.Gen.Kernel.Frame
import proofs.«155567_j79869211836445_1_alg».proof.Proof.Gen.KernelIdeal
import proofs.«155567_j79869211836445_1_alg».proof.Proof.Gen.KernelIdeal.Frame
import proofs.«155567_j79869211836445_1_alg».proof.Proof.Gen.ReferenceIdeal
import proofs.«155567_j79869211836445_1_alg».proof.Proof.Gen.Pre_finite_inputs
import proofs.«155567_j79869211836445_1_alg».proof.Proof.KernelRun
import proofs.«155567_j79869211836445_1_alg».proof.Proof.RefRun
import proofs.«155567_j79869211836445_1_alg».proof.Proof.RefBuffers
import proofs.«155567_j79869211836445_1_alg».proof.Proof.Bridge

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run, read at the argument buffers, which no operation writes. -/
theorem frame_reference : Cert.frame_ReferenceIdeal := fun m ρ _ =>
  (θ_run (Cert.ReferenceIdeal.defs (F := Ideal)) _ _).mono
    (fun _ h c => ⟨(h c Cert.ReferenceIdeal.main_arg0).trans (Cert.ReferenceIdeal.Hand.ops_arg _ Cert.ReferenceIdeal.main_arg0 (by decide)),
      (h c Cert.ReferenceIdeal.main_arg1).trans (Cert.ReferenceIdeal.Hand.ops_arg _ Cert.ReferenceIdeal.main_arg1 (by decide)),
      (h c Cert.ReferenceIdeal.main_arg2).trans (Cert.ReferenceIdeal.Hand.ops_arg _ Cert.ReferenceIdeal.main_arg2 (by decide)),
      (h c Cert.ReferenceIdeal.main_arg3).trans (Cert.ReferenceIdeal.Hand.ops_arg _ Cert.ReferenceIdeal.main_arg3 (by decide)),
      (h c Cert.ReferenceIdeal.main_arg4).trans (Cert.ReferenceIdeal.Hand.ops_arg _ Cert.ReferenceIdeal.main_arg4 (by decide)),
      (h c Cert.ReferenceIdeal.main_arg5).trans (Cert.ReferenceIdeal.Hand.ops_arg _ Cert.ReferenceIdeal.main_arg5 (by decide)),
      (h c Cert.ReferenceIdeal.main_arg6).trans (Cert.ReferenceIdeal.Hand.ops_arg _ Cert.ReferenceIdeal.main_arg6 (by decide)),
      (h c Cert.ReferenceIdeal.main_arg7).trans (Cert.ReferenceIdeal.Hand.ops_arg _ Cert.ReferenceIdeal.main_arg7 (by decide)),
      (h c Cert.ReferenceIdeal.main_arg8).trans (Cert.ReferenceIdeal.Hand.ops_arg _ Cert.ReferenceIdeal.main_arg8 (by decide)),
      (h c Cert.ReferenceIdeal.main_arg9).trans (Cert.ReferenceIdeal.Hand.ops_arg _ Cert.ReferenceIdeal.main_arg9 (by decide)),
      (h c Cert.ReferenceIdeal.main_arg10).trans (Cert.ReferenceIdeal.Hand.ops_arg _ Cert.ReferenceIdeal.main_arg10 (by decide)),
      (h c Cert.ReferenceIdeal.main_arg11).trans (Cert.ReferenceIdeal.Hand.ops_arg _ Cert.ReferenceIdeal.main_arg11 (by decide)),
      (h c Cert.ReferenceIdeal.main_arg12).trans (Cert.ReferenceIdeal.Hand.ops_arg _ Cert.ReferenceIdeal.main_arg12 (by decide))⟩)
    (Cert.ReferenceIdeal.Hand.run_all (F := Ideal) m ρ)

/-- The two idealized programs, from memories agreeing on the arguments, end with equal results: the kernel's
    result buffer holds the fold `W6` at that buffer, the reference's the fold of its operations, and the two folds are
    one value (`Bridge.result_eq`). -/
theorem algebraic : Cert.algebraic_KernelIdeal_ReferenceIdeal := by
  intro m ρ m' ρ' _ hagree
  refine ⟨fun c => Cert.KernelIdeal.Gen.W6 m ρ c (Proc.devRef .tc Cert.KernelIdeal.main_v125), ?_, ?_⟩
  · exact (θ_run (Cert.KernelIdeal.defs (F := Ideal)) _ _).mono
      (fun _ h c => ⟨h c Cert.KernelIdeal.main_v125 (by decide),
        (h c Cert.KernelIdeal.main_arg0 (by decide)).trans (Cert.KernelIdeal.Gen.W6_main_arg0 m ρ c),
        (h c Cert.KernelIdeal.main_arg1 (by decide)).trans (Cert.KernelIdeal.Gen.W6_main_arg1 m ρ c),
        (h c Cert.KernelIdeal.main_arg2 (by decide)).trans (Cert.KernelIdeal.Gen.W6_main_arg2 m ρ c),
        (h c Cert.KernelIdeal.main_arg3 (by decide)).trans (Cert.KernelIdeal.Gen.W6_main_arg3 m ρ c),
        (h c Cert.KernelIdeal.main_arg4 (by decide)).trans (Cert.KernelIdeal.Gen.W6_main_arg4 m ρ c),
        (h c Cert.KernelIdeal.main_arg5 (by decide)).trans (Cert.KernelIdeal.Gen.W6_main_arg5 m ρ c),
        (h c Cert.KernelIdeal.main_arg6 (by decide)).trans (Cert.KernelIdeal.Gen.W6_main_arg6 m ρ c),
        (h c Cert.KernelIdeal.main_arg7 (by decide)).trans (Cert.KernelIdeal.Gen.W6_main_arg7 m ρ c),
        (h c Cert.KernelIdeal.main_arg8 (by decide)).trans (Cert.KernelIdeal.Gen.W6_main_arg8 m ρ c),
        (h c Cert.KernelIdeal.main_arg9 (by decide)).trans (Cert.KernelIdeal.Gen.W6_main_arg9 m ρ c),
        (h c Cert.KernelIdeal.main_arg10 (by decide)).trans (Cert.KernelIdeal.Gen.W6_main_arg10 m ρ c),
        (h c Cert.KernelIdeal.main_arg11 (by decide)).trans (Cert.KernelIdeal.Gen.W6_main_arg11 m ρ c),
        (h c Cert.KernelIdeal.main_arg12 (by decide)).trans (Cert.KernelIdeal.Gen.W6_main_arg12 m ρ c)⟩)
      (Cert.KernelIdeal.Hand.run_all (F := Ideal) m ρ)
  · exact (θ_run (Cert.ReferenceIdeal.defs (F := Ideal)) _ _).mono
      (fun _ h c => ⟨(h c Cert.ReferenceIdeal.main_v126).trans (Cert.Bridge.result_eq m ρ m' c (hagree c)).symm,
        (h c Cert.ReferenceIdeal.main_arg0).trans (Cert.ReferenceIdeal.Hand.ops_arg _ Cert.ReferenceIdeal.main_arg0 (by decide)),
        (h c Cert.ReferenceIdeal.main_arg1).trans (Cert.ReferenceIdeal.Hand.ops_arg _ Cert.ReferenceIdeal.main_arg1 (by decide)),
        (h c Cert.ReferenceIdeal.main_arg2).trans (Cert.ReferenceIdeal.Hand.ops_arg _ Cert.ReferenceIdeal.main_arg2 (by decide)),
        (h c Cert.ReferenceIdeal.main_arg3).trans (Cert.ReferenceIdeal.Hand.ops_arg _ Cert.ReferenceIdeal.main_arg3 (by decide)),
        (h c Cert.ReferenceIdeal.main_arg4).trans (Cert.ReferenceIdeal.Hand.ops_arg _ Cert.ReferenceIdeal.main_arg4 (by decide)),
        (h c Cert.ReferenceIdeal.main_arg5).trans (Cert.ReferenceIdeal.Hand.ops_arg _ Cert.ReferenceIdeal.main_arg5 (by decide)),
        (h c Cert.ReferenceIdeal.main_arg6).trans (Cert.ReferenceIdeal.Hand.ops_arg _ Cert.ReferenceIdeal.main_arg6 (by decide)),
        (h c Cert.ReferenceIdeal.main_arg7).trans (Cert.ReferenceIdeal.Hand.ops_arg _ Cert.ReferenceIdeal.main_arg7 (by decide)),
        (h c Cert.ReferenceIdeal.main_arg8).trans (Cert.ReferenceIdeal.Hand.ops_arg _ Cert.ReferenceIdeal.main_arg8 (by decide)),
        (h c Cert.ReferenceIdeal.main_arg9).trans (Cert.ReferenceIdeal.Hand.ops_arg _ Cert.ReferenceIdeal.main_arg9 (by decide)),
        (h c Cert.ReferenceIdeal.main_arg10).trans (Cert.ReferenceIdeal.Hand.ops_arg _ Cert.ReferenceIdeal.main_arg10 (by decide)),
        (h c Cert.ReferenceIdeal.main_arg11).trans (Cert.ReferenceIdeal.Hand.ops_arg _ Cert.ReferenceIdeal.main_arg11 (by decide)),
        (h c Cert.ReferenceIdeal.main_arg12).trans (Cert.ReferenceIdeal.Hand.ops_arg _ Cert.ReferenceIdeal.main_arg12 (by decide))⟩)
      (Cert.ReferenceIdeal.Hand.run_all (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
